-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x256x28x28 : Shape := ⟨4, ![48, 256, 28, 28]⟩
abbrev S1x256 : Shape := ⟨2, ![1, 256]⟩
abbrev S256x128 : Shape := ⟨2, ![256, 128]⟩
abbrev S1x128 : Shape := ⟨2, ![1, 128]⟩
abbrev S1152x32 : Shape := ⟨2, ![1152, 32]⟩
abbrev S_ : Shape := ⟨0, ![]⟩

class Facts : Prop where
  bcast_S_S48x256x28x28 : S_.BroadcastsInDim S48x256x28x28 (![] : Fin 0 → Fin S48x256x28x28.rank)
  reducesTo_S48x256x28x28_S_d0_1_2_3 : S48x256x28x28.ReducesTo [0, 1, 2, 3] S_
  h_S_ : 0 < S_.numel
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S1152x32 : S_.BroadcastsInDim S1152x32 (![] : Fin 0 → Fin S1152x32.rank)
  reducesTo_S1152x32_S_d0_1 : S1152x32.ReducesTo [0, 1] S_

variable [Facts]

def fn_part1 {F : FTy → Type} [FloatOps F] (main_arg4 : FVec F S1x128 .f32) (main_arg5 : FVec F S1152x32 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1152x32 .f32 := Host.absf main_arg5
  let main_cst_8 : FVec F S_ .f32 := constant S_ .f32 0x7F800000#32
  let main_v25 : FVec F S1152x32 .f32 := broadcastInDim S1152x32 ![] bcast_S_S1152x32 main_cst_8
  let main_v26 : IVec S1152x32 1 := cmpf .olt main_v24 main_v25
  let main_c_9 : IVec S_ 1 := constantI S_ 1 1#1
  let main_v27 : IVec S_ 1 := (fun x v => Host.reduce IntOp.andi x v reducesTo_S1152x32_S_d0_1 h_S_) main_v26 main_c_9
  let main_v28 : IVec S_ 1 := andi main_v23 main_v27
  main_v28

def fn {F : FTy → Type} [FloatOps F] (main_arg0 : FVec F S48x256x28x28 .f32) (main_arg1 : FVec F S1x256 .f32) (main_arg2 : FVec F S1x256 .f32) (main_arg3 : FVec F S256x128 .f32) (main_arg4 : FVec F S1x128 .f32) (main_arg5 : FVec F S1152x32 .f32) : IVec S_ 1 :=
  let main_v0 : FVec F S48x256x28x28 .f32 := Host.absf main_arg0
  let main_cst : FVec F S_ .f32 := constant S_ .f32 0x7F800000#32
  let main_v1 : FVec F S48x256x28x28 .f32 := broadcastInDim S48x256x28x28 ![] bcast_S_S48x256x28x28 main_cst
  let main_v2 : IVec S48x256x28x28 1 := cmpf .olt main_v0 main_v1
  let main_c : IVec S_ 1 := constantI S_ 1 1#1
  let main_v3 : IVec S_ 1 := (fun x v => Host.reduce IntOp.andi x v reducesTo_S48x256x28x28_S_d0_1_2_3 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S48x256x28x28 : Shape := ⟨4, ![48, 256, 28, 28]⟩
abbrev S1x256 : Shape := ⟨2, ![1, 256]⟩
abbrev S256x128 : Shape := ⟨2, ![256, 128]⟩
abbrev S1x128 : Shape := ⟨2, ![1, 128]⟩
abbrev S1152x32 : Shape := ⟨2, ![1152, 32]⟩
abbrev S3x3x128x32 : Shape := ⟨4, ![3, 3, 128, 32]⟩
abbrev S3x128x3x32 : Shape := ⟨4, ![3, 128, 3, 32]⟩
abbrev S384x96 : Shape := ⟨2, ![384, 96]⟩
abbrev S28x28x48x256 : Shape := ⟨4, ![28, 28, 48, 256]⟩
abbrev S784x48x256 : Shape := ⟨3, ![784, 48, 256]⟩
abbrev S784x48x288 : Shape := ⟨3, ![784, 48, 288]⟩
abbrev S784x8x256 : Shape := ⟨3, ![784, 8, 256]⟩
abbrev S784x8x288 : Shape := ⟨3, ![784, 8, 288]⟩
abbrev S6272x256 : Shape := ⟨2, ![6272, 256]⟩
abbrev S6272x128 : Shape := ⟨2, ![6272, 128]⟩
abbrev S28x224x128 : Shape := ⟨3, ![28, 224, 128]⟩
abbrev S28x8x128 : Shape := ⟨3, ![28, 8, 128]⟩
abbrev S28x216x128 : Shape := ⟨3, ![28, 216, 128]⟩
abbrev S28x224x384 : Shape := ⟨3, ![28, 224, 384]⟩
abbrev S6272x384 : Shape := ⟨2, ![6272, 384]⟩
abbrev S6272x96 : Shape := ⟨2, ![6272, 96]⟩
abbrev S28x224x96 : Shape := ⟨3, ![28, 224, 96]⟩
abbrev S28x224x32 : Shape := ⟨3, ![28, 224, 32]⟩
abbrev S1x224x32 : Shape := ⟨3, ![1, 224, 32]⟩
abbrev S27x224x32 : Shape := ⟨3, ![27, 224, 32]⟩
abbrev S784x8x32 : Shape := ⟨3, ![784, 8, 32]⟩
abbrev S28x28x48x288 : Shape := ⟨4, ![28, 28, 48, 288]⟩
abbrev S48x288x28x28 : Shape := ⟨4, ![48, 288, 28, 28]⟩

abbrev nBuf : Space → Nat
  | .hbm => 14
  | .vmem => 9
  | .smem => 0
  | _ => 0

abbrev bufTy : (tb : Table) → Fin (tcTables nBuf tb) → BufTy
  | .hbm, ⟨0, _⟩ => ⟨S48x256x28x28, .f32⟩
  | .hbm, ⟨1, _⟩ => ⟨S1x256, .f32⟩
  | .hbm, ⟨2, _⟩ => ⟨S1x256, .f32⟩
  | .hbm, ⟨3, _⟩ => ⟨S256x128, .f32⟩
  | .hbm, ⟨4, _⟩ => ⟨S1x128, .f32⟩
  | .hbm, ⟨5, _⟩ => ⟨S1152x32, .f32⟩
  | .hbm, ⟨6, _⟩ => ⟨S3x3x128x32, .f32⟩
  | .hbm, ⟨7, _⟩ => ⟨S3x128x3x32, .f32⟩
  | .hbm, ⟨8, _⟩ => ⟨S384x96, .f32⟩
  | .hbm, ⟨9, _⟩ => ⟨S28x28x48x256, .f32⟩
  | .hbm, ⟨10, _⟩ => ⟨S784x48x256, .f32⟩
  | .hbm, ⟨11, _⟩ => ⟨S784x48x288, .f32⟩
  | .hbm, ⟨12, _⟩ => ⟨S28x28x48x288, .f32⟩
  | .hbm, ⟨13, _⟩ => ⟨S48x288x28x28, .f32⟩
  | .local _ .vmem, ⟨0, _⟩ => ⟨S784x8x256, .f32⟩
  | .local _ .vmem, ⟨1, _⟩ => ⟨S784x8x256, .f32⟩
  | .local _ .vmem, ⟨2, _⟩ => ⟨S1x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S384x96, .f32⟩
  | .local _ .vmem, ⟨7, _⟩ => ⟨S784x8x288, .f32⟩
  | .local _ .vmem, ⟨8, _⟩ => ⟨S784x8x288, .f32⟩
  | _, _ => ⟨S48x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S784x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S784x8x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1152x32_S3x3x128x32 : S1152x32.ShapeCasts S3x3x128x32
  transposes_S3x3x128x32_S3x128x3x32_1_2_0_3 : S3x3x128x32.Transposes [1, 2, 0, 3] S3x128x3x32
  shapeCasts_S3x128x3x32_S384x96 : S3x128x3x32.ShapeCasts S384x96
  transposes_S48x256x28x28_S28x28x48x256_2_3_0_1 : S48x256x28x28.Transposes [2, 3, 0, 1] S28x28x48x256
  shapeCasts_S28x28x48x256_S784x48x256 : S28x28x48x256.ShapeCasts S784x48x256
  inb_S784x8x256_S784x8x256_0_0_0 : ∀ a, (![0, 0, 0] : Fin 3 → Nat) a + S784x8x256.size a ≤ S784x8x256.size a
  h_S784x8x256 : 0 < S784x8x256.numel
  shapeCasts_S784x8x256_S784x8x256 : S784x8x256.ShapeCasts S784x8x256
  inb_S784x8x288_S784x8x256_0_0_0 : ∀ a, (![0, 0, 0] : Fin 3 → Nat) a + S784x8x256.size a ≤ S784x8x288.size a
  shapeCasts_S784x8x256_S6272x256 : S784x8x256.ShapeCasts S6272x256
  inb_S1x256_S1x256_0_0 : ∀ a, (![0, 0] : Fin 2 → Nat) a + S1x256.size a ≤ S1x256.size a
  h_S1x256 : 0 < S1x256.numel
  broadcasts_S1x256_S6272x256 : S1x256.Broadcasts S6272x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S6272x128 : S1x128.Broadcasts S6272x128
  shapeCasts_S6272x128_S28x224x128 : S6272x128.ShapeCasts S28x224x128
  slices_S28x224x128_o0_0_0_S28x216x128 : S28x224x128.Slices ![0, 0, 0] S28x216x128
  concatenates_S28x8x128_S28x216x128_S28x224x128_d1 : Shape.Concatenates [S28x8x128, S28x216x128] S28x224x128 1
  slices_S28x224x128_o0_8_0_S28x216x128 : S28x224x128.Slices ![0, 8, 0] S28x216x128
  concatenates_S28x216x128_S28x8x128_S28x224x128_d1 : Shape.Concatenates [S28x216x128, S28x8x128] S28x224x128 1
  concatenates_S28x224x128_S28x224x128_S28x224x128_S28x224x384_d2 : Shape.Concatenates [S28x224x128, S28x224x128, S28x224x128] S28x224x384 2
  shapeCasts_S28x224x384_S6272x384 : S28x224x384.ShapeCasts S6272x384
  inb_S384x96_S384x96_0_0 : ∀ a, (![0, 0] : Fin 2 → Nat) a + S384x96.size a ≤ S384x96.size a
  h_S384x96 : 0 < S384x96.numel
  shapeCasts_S384x96_S384x96 : S384x96.ShapeCasts S384x96
  shapeCasts_S6272x96_S28x224x96 : S6272x96.ShapeCasts S28x224x96
  slices_S28x224x96_o0_0_32_S28x224x32 : S28x224x96.Slices ![0, 0, 32] S28x224x32
  slices_S28x224x96_o0_0_0_S28x224x32 : S28x224x96.Slices ![0, 0, 0] S28x224x32
  slices_S28x224x32_o0_0_0_S27x224x32 : S28x224x32.Slices ![0, 0, 0] S27x224x32
  concatenates_S1x224x32_S27x224x32_S28x224x32_d0 : Shape.Concatenates [S1x224x32, S27x224x32] S28x224x32 0
  slices_S28x224x96_o0_0_64_S28x224x32 : S28x224x96.Slices ![0, 0, 64] S28x224x32
  slices_S28x224x32_o1_0_0_S27x224x32 : S28x224x32.Slices ![1, 0, 0] S27x224x32
  concatenates_S27x224x32_S1x224x32_S28x224x32_d0 : Shape.Concatenates [S27x224x32, S1x224x32] S28x224x32 0
  shapeCasts_S28x224x32_S784x8x32 : S28x224x32.ShapeCasts S784x8x32
  inb_S784x8x288_S784x8x32_0_0_256 : ∀ a, (![0, 0, 256] : Fin 3 → Nat) a + S784x8x32.size a ≤ S784x8x288.size a
  h_S784x8x32 : 0 < S784x8x32.numel
  shapeCasts_S784x48x288_S28x28x48x288 : S784x48x288.ShapeCasts S28x28x48x288
  transposes_S28x28x48x288_S48x288x28x28_2_3_0_1 : S28x28x48x288.Transposes [2, 3, 0, 1] S48x288x28x28
  dot_S6272x256_S256x128_S6272x128_1_0_0_1_n_n_wf : DotDims.WF S6272x256 S256x128 S6272x128 [1] [0] [0] [1] [] []
  dot_S6272x384_S384x96_S6272x96_1_0_0_1_n_n_wf : DotDims.WF S6272x384 S384x96 S6272x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x8x256.size a ≤ S784x48x256.size a
  hwx0_0 : ∀ i : grid0.Coords, EltTy.bits .f32 = 32 ∨ (Rect.block (s := S784x48x256) S784x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x96.size a ≤ S384x96.size a
  hwx0_5 : ∀ i : grid0.Coords, EltTy.bits .f32 = 32 ∨ (Rect.block (s := S384x96) S384x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S784x8x288.size a ≤ S784x48x288.size a
  hwx0_6 : ∀ i : grid0.Coords, EltTy.bits .f32 = 32 ∨ (Rect.block (s := S784x48x288) S784x8x288.size (cc0_transform_6 i) (hinb0_6 i)).WholeWords (EltTy.packing .f32)

variable [Facts₀]

def dot_S6272x256_S256x128_S6272x128_1_0_0_1_n_n : DotDims S6272x256 S256x128 S6272x128 where
  lhsContracting := [1]
  rhsContracting := [0]
  lhsNonContracting := [0]
  rhsNonContracting := [1]
  lhsBatch := []
  rhsBatch := []
  wf := dot_S6272x256_S256x128_S6272x128_1_0_0_1_n_n_wf
def dot_S6272x384_S384x96_S6272x96_1_0_0_1_n_n : DotDims S6272x384 S384x96 S6272x96 where
  lhsContracting := [1]
  rhsContracting := [0]
  lhsNonContracting := [0]
  rhsNonContracting := [1]
  lhsBatch := []
  rhsBatch := []
  wf := dot_S6272x384_S384x96_S6272x96_1_0_0_1_n_n_wf

abbrev win0_0 : Pipeline.Window sig grid0 :=
  Pipeline.Window.ofSpec (Memref.whole main_v4) S784x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S384x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S784x8x288.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S48x256x28x28 : Shape := ⟨4, ![48, 256, 28, 28]⟩
abbrev S1x256 : Shape := ⟨2, ![1, 256]⟩
abbrev S256x128 : Shape := ⟨2, ![256, 128]⟩
abbrev S1x128 : Shape := ⟨2, ![1, 128]⟩
abbrev S1152x32 : Shape := ⟨2, ![1152, 32]⟩
abbrev S48x28x28x256 : Shape := ⟨4, ![48, 28, 28, 256]⟩
abbrev S48x784x256 : Shape := ⟨3, ![48, 784, 256]⟩
abbrev S28 : Shape := ⟨1, ![28]⟩
abbrev S1x28 : Shape := ⟨2, ![1, 28]⟩
abbrev S28x28 : Shape := ⟨2, ![28, 28]⟩
abbrev S784 : Shape := ⟨1, ![784]⟩
abbrev S784x1 : Shape := ⟨2, ![784, 1]⟩
abbrev S_ : Shape := ⟨0, ![]⟩
abbrev S784x128 : Shape := ⟨2, ![784, 128]⟩
abbrev S1x784x128 : Shape := ⟨3, ![1, 784, 128]⟩
abbrev S2x784x128 : Shape := ⟨3, ![2, 784, 128]⟩
abbrev S48x784x32 : Shape := ⟨3, ![48, 784, 32]⟩
abbrev S1x784x256 : Shape := ⟨3, ![1, 784, 256]⟩
abbrev S1x784x32 : Shape := ⟨3, ![1, 784, 32]⟩
abbrev S784x256 : Shape := ⟨2, ![784, 256]⟩
abbrev S28x128 : Shape := ⟨2, ![28, 128]⟩
abbrev S756x128 : Shape := ⟨2, ![756, 128]⟩
abbrev S784x1152 : Shape := ⟨2, ![784, 1152]⟩
abbrev S784x32 : Shape := ⟨2, ![784, 32]⟩
abbrev S48x28x28x32 : Shape := ⟨4, ![48, 28, 28, 32]⟩
abbrev S48x28x28x288 : Shape := ⟨4, ![48, 28, 28, 288]⟩
abbrev S48x288x28x28 : Shape := ⟨4, ![48, 288, 28, 28]⟩

abbrev nBuf : Space → Nat
  | .hbm => 38
  | .vmem => 10
  | .smem => 0
  | _ => 0

abbrev bufTy : (tb : Table) → Fin (tcTables nBuf tb) → BufTy
  | .hbm, ⟨0, _⟩ => ⟨S48x256x28x28, .f32⟩
  | .hbm, ⟨1, _⟩ => ⟨S1x256, .f32⟩
  | .hbm, ⟨2, _⟩ => ⟨S1x256, .f32⟩
  | .hbm, ⟨3, _⟩ => ⟨S256x128, .f32⟩
  | .hbm, ⟨4, _⟩ => ⟨S1x128, .f32⟩
  | .hbm, ⟨5, _⟩ => ⟨S1152x32, .f32⟩
  | .hbm, ⟨6, _⟩ => ⟨S48x28x28x256, .f32⟩
  | .hbm, ⟨7, _⟩ => ⟨S48x784x256, .f32⟩
  | .hbm, ⟨8, _⟩ => ⟨S28, .i32⟩
  | .hbm, ⟨9, _⟩ => ⟨S1x28, .i32⟩
  | .hbm, ⟨10, _⟩ => ⟨S28x28, .i32⟩
  | .hbm, ⟨11, _⟩ => ⟨S784, .i32⟩
  | .hbm, ⟨12, _⟩ => ⟨S784x1, .i32⟩
  | .hbm, ⟨13, _⟩ => ⟨S_, .f32⟩
  | .hbm, ⟨14, _⟩ => ⟨S784x128, .f32⟩
  | .hbm, ⟨15, _⟩ => ⟨S_, .i32⟩
  | .hbm, ⟨16, _⟩ => ⟨S784x1, .i32⟩
  | .hbm, ⟨17, _⟩ => ⟨S784x1, .i1⟩
  | .hbm, ⟨18, _⟩ => ⟨S_, .f32⟩
  | .hbm, ⟨19, _⟩ => ⟨S_, .f32⟩
  | .hbm, ⟨20, _⟩ => ⟨S784x128, .i1⟩
  | .hbm, ⟨21, _⟩ => ⟨S784x128, .f32⟩
  | .hbm, ⟨22, _⟩ => ⟨S784x128, .f32⟩
  | .hbm, ⟨23, _⟩ => ⟨S_, .i32⟩
  | .hbm, ⟨24, _⟩ => ⟨S784x1, .i32⟩
  | .hbm, ⟨25, _⟩ => ⟨S784x1, .i1⟩
  | .hbm, ⟨26, _⟩ => ⟨S_, .f32⟩
  | .hbm, ⟨27, _⟩ => ⟨S_, .f32⟩
  | .hbm, ⟨28, _⟩ => ⟨S784x128, .i1⟩
  | .hbm, ⟨29, _⟩ => ⟨S784x128, .f32⟩
  | .hbm, ⟨30, _⟩ => ⟨S784x128, .f32⟩
  | .hbm, ⟨31, _⟩ => ⟨S1x784x128, .f32⟩
  | .hbm, ⟨32, _⟩ => ⟨S1x784x128, .f32⟩
  | .hbm, ⟨33, _⟩ => ⟨S2x784x128, .f32⟩
  | .hbm, ⟨34, _⟩ => ⟨S48x784x32, .f32⟩
  | .hbm, ⟨35, _⟩ => ⟨S48x28x28x32, .f32⟩
  | .hbm, ⟨36, _⟩ => ⟨S48x28x28x288, .f32⟩
  | .hbm, ⟨37, _⟩ => ⟨S48x288x28x28, .f32⟩
  | .local _ .vmem, ⟨0, _⟩ => ⟨S1x784x256, .f32⟩
  | .local _ .vmem, ⟨1, _⟩ => ⟨S1x784x256, .f32⟩
  | .local _ .vmem, ⟨2, _⟩ => ⟨S1x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1152x32, .f32⟩
  | .local _ .vmem, ⟨7, _⟩ => ⟨S2x784x128, .f32⟩
  | .local _ .vmem, ⟨8, _⟩ => ⟨S1x784x32, .f32⟩
  | .local _ .vmem, ⟨9, _⟩ => ⟨S1x784x32, .f32⟩
  | _, _ => ⟨S48x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x784x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x784x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S48x256x28x28_S48x28x28x256_0_2_3_1 : S48x256x28x28.Transposes [0, 2, 3, 1] S48x28x28x256
  shapeCasts_S48x28x28x256_S48x784x256 : S48x28x28x256.ShapeCasts S48x784x256
  shapeCasts_S28_S1x28 : S28.ShapeCasts S1x28
  bcast_S1x28_S28x28_0_1 : S1x28.BroadcastsInDim S28x28 (![0, 1] : Fin 2 → Fin S28x28.rank)
  shapeCasts_S28x28_S784 : S28x28.ShapeCasts S784
  bcast_S784_S784x1_0 : S784.BroadcastsInDim S784x1 (![0] : Fin 1 → Fin S784x1.rank)
  bcast_S_S784x128 : S_.BroadcastsInDim S784x128 (![] : Fin 0 → Fin S784x128.rank)
  bcast_S_S784x1 : S_.BroadcastsInDim S784x1 (![] : Fin 0 → Fin S784x1.rank)
  bcast_S784x1_S784x128_0_1 : S784x1.BroadcastsInDim S784x128 (![0, 1] : Fin 2 → Fin S784x128.rank)
  bcast_S784x128_S1x784x128_1_2 : S784x128.BroadcastsInDim S1x784x128 (![1, 2] : Fin 2 → Fin S1x784x128.rank)
  concatenates_S1x784x128_S1x784x128_S2x784x128_d0 : Shape.Concatenates [S1x784x128, S1x784x128] S2x784x128 0
  inb_S1x784x256_S1x784x256_0_0_0 : ∀ a, (![0, 0, 0] : Fin 3 → Nat) a + S1x784x256.size a ≤ S1x784x256.size a
  h_S1x784x256 : 0 < S1x784x256.numel
  shapeCasts_S1x784x256_S784x256 : S1x784x256.ShapeCasts S784x256
  inb_S1x256_S1x256_0_0 : ∀ a, (![0, 0] : Fin 2 → Nat) a + S1x256.size a ≤ S1x256.size a
  h_S1x256 : 0 < S1x256.numel
  broadcasts_S1x256_S784x256 : S1x256.Broadcasts S784x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S784x128 : S1x128.Broadcasts S784x128
  inb_S2x784x128_S1x784x128_0_0_0 : ∀ a, (![0, 0, 0] : Fin 3 → Nat) a + S1x784x128.size a ≤ S2x784x128.size a
  h_S1x784x128 : 0 < S1x784x128.numel
  shapeCasts_S1x784x128_S784x128 : S1x784x128.ShapeCasts S784x128
  rotates_S784x128_d0 : S784x128.Rotates 0 none
  inb_S2x784x128_S1x784x128_1_0_0 : ∀ a, (![1, 0, 0] : Fin 3 → Nat) a + S1x784x128.size a ≤ S2x784x128.size a
  slices_S784x128_o0_0_S756x128 : S784x128.Slices ![0, 0] S756x128
  concatenates_S28x128_S756x128_S784x128_d0 : Shape.Concatenates [S28x128, S756x128] S784x128 0
  slices_S784x128_o28_0_S756x128 : S784x128.Slices ![28, 0] S756x128
  concatenates_S756x128_S28x128_S784x128_d0 : Shape.Concatenates [S756x128, S28x128] S784x128 0
  concatenates_S784x128_S784x128_S784x128_S784x128_S784x128_S784x128_S784x128_S784x128_S784x128_S784x1152_d1 : Shape.Concatenates [S784x128, S784x128, S784x128, S784x128, S784x128, S784x128, S784x128, S784x128, S784x128] S784x1152 1
  inb_S1152x32_S1152x32_0_0 : ∀ a, (![0, 0] : Fin 2 → Nat) a + S1152x32.size a ≤ S1152x32.size a
  h_S1152x32 : 0 < S1152x32.numel
  inb_S1x784x32_S1x784x32_0_0_0 : ∀ a, (![0, 0, 0] : Fin 3 → Nat) a + S1x784x32.size a ≤ S1x784x32.size a
  h_S1x784x32 : 0 < S1x784x32.numel
  shapeCasts_S1x784x32_S784x32 : S1x784x32.ShapeCasts S784x32
  shapeCasts_S784x32_S1x784x32 : S784x32.ShapeCasts S1x784x32
  shapeCasts_S48x784x32_S48x28x28x32 : S48x784x32.ShapeCasts S48x28x28x32
  concatenates_S48x28x28x256_S48x28x28x32_S48x28x28x288_d3 : Shape.Concatenates [S48x28x28x256, S48x28x28x32] S48x28x28x288 3
  transposes_S48x28x28x288_S48x288x28x28_0_3_1_2 : S48x28x28x288.Transposes [0, 3, 1, 2] S48x288x28x28
  dot_S784x256_S256x128_S784x128_1_0_0_1_n_n_wf : DotDims.WF S784x256 S256x128 S784x128 [1] [0] [0] [1] [] []
  dot_S784x1152_S1152x32_S784x32_1_0_0_1_n_n_wf : DotDims.WF S784x1152 S1152x32 S784x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x784x256.size a ≤ S48x784x256.size a
  hwx0_0 : ∀ i : grid0.Coords, EltTy.bits .f32 = 32 ∨ (Rect.block (s := S48x784x256) S1x784x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1152x32.size a ≤ S1152x32.size a
  hwx0_5 : ∀ i : grid0.Coords, EltTy.bits .f32 = 32 ∨ (Rect.block (s := S1152x32) S1152x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x784x128.size a ≤ S2x784x128.size a
  hwx0_6 : ∀ i : grid0.Coords, EltTy.bits .f32 = 32 ∨ (Rect.block (s := S2x784x128) S2x784x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x784x32.size a ≤ S48x784x32.size a
  hwx0_7 : ∀ i : grid0.Coords, EltTy.bits .f32 = 32 ∨ (Rect.block (s := S48x784x32) S1x784x32.size (cc0_transform_7 i) (hinb0_7 i)).WholeWords (EltTy.packing .f32)

variable [Facts₀]

def dot_S784x256_S256x128_S784x128_1_0_0_1_n_n : DotDims S784x256 S256x128 S784x128 where
  lhsContracting := [1]
  rhsContracting := [0]
  lhsNonContracting := [0]
  rhsNonContracting := [1]
  lhsBatch := []
  rhsBatch := []
  wf := dot_S784x256_S256x128_S784x128_1_0_0_1_n_n_wf
def dot_S784x1152_S1152x32_S784x32_1_0_0_1_n_n : DotDims S784x1152 S1152x32 S784x32 where
  lhsContracting := [1]
  rhsContracting := [0]
  lhsNonContracting := [0]
  rhsNonContracting := [1]
  lhsBatch := []
  rhsBatch := []
  wf := dot_S784x1152_S1152x32_S784x32_1_0_0_1_n_n_wf

abbrev win0_0 : Pipeline.Window sig grid0 :=
  Pipeline.Window.ofSpec (Memref.whole main_v1) S1x784x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1152x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2x784x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x784x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Spec.lean ====
/-
  The layer both programs compute, stated once, index by index, on the extended reals.

  Input x of shape [48, 256, 28, 28] (image n, channel k, row i, column j). Per image and position:
    h(k)   = max (x(n,k,i,j) · s1(k) + b1(k)) 0                                  (256 channels)
    T(c)   = max (Σ_k h(k) · w1(k,c) + b2(c)) 0                                  (128 channels): `act`
  and the 3×3 convolution with zero padding: the window around (i, j) laid out as one vector of 1152 = 3·3·128 entries,
  entry k = a·384 + b·128 + c holding T at row i + a − 1, column j + b − 1, channel c, or 0 outside the image (`col`),
  contracted with the weights w2 of shape [1152, 32] (`conv`). The result has 288 channels: the first 256 are x itself,
  the last 32 the convolution (`out`).
  The clamp's zero is kept as the value of the f32 pattern of +0 (never evaluated); the padding is the number 0.
-/
import Idealize.ShloMosaic.Lib.ValueIdx
import Idealize.ShloMosaic.PureOps.Ideal

noncomputable section

open scoped BigOperators

namespace Cert.DenseConv

open Idealize.ShloMosaic Idealize.ShloMosaic.ValueIdx

/-- The zero of the two clamps: the value of the f32 pattern of +0. -/
abbrev zero : EReal := Ideal.ofBits .f32 0x00000000#32

/-- The hidden activation at row `i`, column `j`, channel `c`, of an image given position by position as its 256 input
    channels `xr i j k`. -/
def actOf (xr : Fin 28 → Fin 28 → Fin 256 → EReal) (s1 b1 : (⟨2, ![1, 256]⟩ : Shape).Idx → EReal)
    (w1 : (⟨2, ![256, 128]⟩ : Shape).Idx → EReal) (b2 : (⟨2, ![1, 128]⟩ : Shape).Idx → EReal)
    (i j : Fin 28) (c : Fin 128) : EReal :=
  max (∑ k : Fin 256, max (xr i j k * s1 (ix2 (0 : Fin 1) k) + b1 (ix2 (0 : Fin 1) k)) zero * w1 (ix2 k c)
    + b2 (ix2 (0 : Fin 1) c)) zero

/-- An image's activation with a border of zeros: position `(r, s)` counts rows and columns from 1, so that
    `(r, s)` is row `r − 1`, column `s − 1` of the image when both lie in 1..28, and 0 otherwise. -/
def pad (T : Fin 28 → Fin 28 → Fin 128 → EReal) (r s : ℕ) (c : Fin 128) : EReal :=
  if h : (1 ≤ r ∧ r ≤ 28) ∧ (1 ≤ s ∧ s ≤ 28) then T ⟨r - 1, by omega⟩ ⟨s - 1, by omega⟩ c else 0

/-- Entry `k = a·384 + b·128 + c` of the window around `(i, j)`: the padded activation at row `i + a − 1`,
    column `j + b − 1`, channel `c`. -/
def col (T : Fin 28 → Fin 28 → Fin 128 → EReal) (i j : Fin 28) (k : Fin 1152) : EReal :=
  pad T (i.val + k.val / 384) (j.val + k.val % 384 / 128) ⟨k.val % 128, Nat.mod_lt _ (by norm_num)⟩

/-- The 3×3 convolution at `(i, j)` for one output channel, whose 1152 weights are `w`. -/
def convOf (T : Fin 28 → Fin 28 → Fin 128 → EReal) (w : Fin 1152 → EReal) (i j : Fin 28) : EReal :=
  ∑ k : Fin 1152, col T i j k * w k

/-- The layer's result of shape [48, 288, 28, 28]: channels below 256 are the input's, the 32 after them the convolution's. -/
def out (x : (⟨4, ![48, 256, 28, 28]⟩ : Shape).Idx → EReal) (s1 b1 : (⟨2, ![1, 256]⟩ : Shape).Idx → EReal)
    (w1 : (⟨2, ![256, 128]⟩ : Shape).Idx → EReal) (b2 : (⟨2, ![1, 128]⟩ : Shape).Idx → EReal)
    (w2 : (⟨2, ![1152, 32]⟩ : Shape).Idx → EReal) : (⟨4, ![48, 288, 28, 28]⟩ : Shape).Idx → EReal := fun y =>
  if h : (y 1).val < 256 then x (ix4 (y 0) ⟨(y 1).val, h⟩ (y 2) (y 3))
  else convOf (actOf (fun i j k => x (ix4 (y 0) k i j)) s1 b1 w1 b2)
    (fun k => w2 (ix2 k (⟨(y 1).val - 256, by have h1 : (y 1).val < 288 := (y 1).isLt; omega⟩ : Fin 32))) (y 2) (y 3)

end Cert.DenseConv

end
-- ==== Proof.KerRunHost.lean ====
import proofs.«159024_g2000605899403188_pallasbulk_86_30_alg».proof.Proof.Gen.KernelIdeal.Frame
import proofs.«159024_g2000605899403188_pallasbulk_86_30_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KerRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The input as the region finds it — transposed to positions first, the two position axes merged: entry
    (hw, n, k) with hw = i·28 + j is the input at image n, channel k, row i, column j. -/
theorem V_v4_apply (c : Dev nD) (hw : Fin 784) (n : Fin 48) (k : Fin 256) (i j : Fin 28) (h : hw.val = i.val * 28 + j.val) :
    (V m c main_v4 : S784x48x256.Idx → EReal) (ix3 hw n k)
      = (m ((c : Thread nD τ).loc main_arg0) : S48x256x28x28.Idx → EReal) (ix4 n k i j) := by
  have e : (V m c main_v4 : S784x48x256.Idx → EReal) = shapeCast S784x48x256 (transpose S28x28x48x256 [2, 3, 0, 1]
      (m ((c : Thread nD τ).loc main_arg0) : S48x256x28x28.Idx → EReal) transposes_S48x256x28x28_S28x28x48x256_2_3_0_1)
      shapeCasts_S28x28x48x256_S784x48x256 := by
    show StableHlo.after hostOps0 (fun b => m (c, b)) (Proc.devRef .tc main_v4) = _
    after_results
    rfl
  rw [e, shapeCast_apply _ _ (ix3 hw n k) (ix4 i j n k) (by
    rw [Shape.rowMajor_val_four, Shape.rowMajor_val_three]
    show ((i.val * 28 + j.val) * 48 + n.val) * 256 + k.val = (hw.val * 48 + n.val) * 256 + k.val
    rw [h]),
    transpose_apply _ _ _ (ix4 i j n k) (ix4 n k i j) (by intro b; fin_cases b <;> rfl)]

/-- The regrouped convolution weights as the region finds them: weight k = a·384 + r of output channel g sits at
    row r = k mod 384, column a·32 + g. -/
theorem V_v2_apply (c : Dev nD) (k : Fin 1152) (g : Fin 32) (r : Fin 384) (q : Fin 96)
    (hr : r.val = k.val % 384) (hq : q.val = k.val / 384 * 32 + g.val) :
    (V m c main_v2 : S384x96.Idx → EReal) (ix2 r q)
      = (m ((c : Thread nD τ).loc main_arg5) : S1152x32.Idx → EReal) (ix2 k g) := by
  have e : (V m c main_v2 : S384x96.Idx → EReal) = shapeCast S384x96 (transpose S3x128x3x32 [1, 2, 0, 3]
      (shapeCast S3x3x128x32 (m ((c : Thread nD τ).loc main_arg5) : S1152x32.Idx → EReal) shapeCasts_S1152x32_S3x3x128x32)
      transposes_S3x3x128x32_S3x128x3x32_1_2_0_3) shapeCasts_S3x128x3x32_S384x96 := by
    show StableHlo.after hostOps0 (fun b => m (c, b)) (Proc.devRef .tc main_v2) = _
    after_results
    rfl
  have hk : k.val < 1152 := k.isLt
  have hg : g.val < 32 := g.isLt
  let a : Fin 3 := ⟨k.val / 384, by omega⟩
  let b : Fin 3 := ⟨k.val % 384 / 128, by omega⟩
  let cc : Fin 128 := ⟨k.val % 128, by omega⟩
  rw [e, shapeCast_apply _ _ (ix2 r q) (ix4 b cc a g) (by
    rw [Shape.rowMajor_val_four, Shape.rowMajor_val_two]
    show ((k.val % 384 / 128 * 128 + k.val % 128) * 3 + k.val / 384) * 32 + g.val = r.val * 96 + q.val
    omega),
    transpose_apply _ _ _ (ix4 b cc a g) (ix4 a b cc g) (by intro d; fin_cases d <;> rfl),
    shapeCast_apply _ _ (ix4 a b cc g) (ix2 k g) (by
    rw [Shape.rowMajor_val_four, Shape.rowMajor_val_two]
    show k.val * 32 + g.val = ((k.val / 384 * 3 + k.val % 384 / 128) * 128 + k.val % 128) * 32 + g.val
    omega)]

end Cert.KernelIdeal.KerRun

end
-- ==== Proof.LibCanonUnit.lean ====
/-
  The contents a list of writes leaves, read at an entry, when the newest write goes through a unit-stride rectangle.
  With the writes listed last first: an entry inside the newest rectangle holds that write's value at the entry's
  position within the rectangle (coordinate = offset + position on every axis); an entry outside it on some axis
  (below the offset, or at or past offset + size) holds what the earlier writes left. General: nothing here depends
  on a particular program.
-/
import Idealize.ShloMosaic.Lib.Pipeline.FrameBody

namespace Idealize.ShloMosaic.View

open Idealize.ShloMosaic

variable {s : Shape} {e : EltTy} {Val : EltTy → Type}

/-- An entry at position `x` of the newest write's rectangle holds that write's value at `x`. -/
theorem canon_cons_unit_of_mem [∀ e, Nonempty (Val e)] {off off' size : Fin s.rank → ℕ} (inb : ∀ a, off a + size a ≤ s.size a)
    (w : (Rect.unit off size inb).shape.Idx → Val e) (L : List (Piece Val s e)) (y : s.Idx)
    (x : (Rect.unit off size inb).shape.Idx) (heq : off = off') (hx : ∀ a, (y a).val = off' a + (x a).val) :
    canon ((⟨Rect.unit off size inb, w⟩ : Piece Val s e) :: L) y = w x := by
  subst heq
  have hy : (Rect.unit off size inb).emb x = y := funext fun a => Fin.ext (by
    show off a + 1 * (x a).val = (y a).val
    rw [hx a, Nat.one_mul])
  exact (congrArg (canon ((⟨Rect.unit off size inb, w⟩ : Piece Val s e) :: L)) hy.symm).trans
    (canon_cons_emb (Rect.unit off size inb) w L x)

/-- An entry outside the newest write's rectangle on axis `a` holds what the earlier writes left. -/
theorem canon_cons_unit_of_not_mem [∀ e, Nonempty (Val e)] {off off' size : Fin s.rank → ℕ} (inb : ∀ a, off a + size a ≤ s.size a)
    (w : (Rect.unit off size inb).shape.Idx → Val e) (L : List (Piece Val s e)) (y : s.Idx) (heq : off = off')
    (a : Fin s.rank) (ha : (y a).val < off' a ∨ off' a + size a ≤ (y a).val) :
    canon ((⟨Rect.unit off size inb, w⟩ : Piece Val s e) :: L) y = canon L y := by
  subst heq
  refine canon_cons_of_not_mem _ L ?_
  intro hm
  have hm' : y ∈ (Rect.unit off size inb).set := hm
  have h := (Rect.mem_set_unit (inb := inb)).mp hm' a
  omega

/-- The same with the rectangle's offsets as they stand: an entry at position `x` of the newest write's rectangle. -/
theorem canon_cons_unit_hit [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    canon ((⟨Rect.unit off size inb, w⟩ : Piece Val s e) :: L) y = w x :=
  canon_cons_unit_of_mem inb w L y x rfl hx
/-- The same with the rectangle's offsets as they stand: an entry outside the newest write's rectangle on axis `a`. -/
theorem canon_cons_unit_skip [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y :=
  canon_cons_unit_of_not_mem inb w L y rfl a ha

end Idealize.ShloMosaic.View
-- ==== Proof.KerRunPieces.lean ====
import proofs.«159024_g2000605899403188_pallasbulk_86_30_alg».proof.Proof.Gen.KernelIdeal.Frame
import proofs.«159024_g2000605899403188_pallasbulk_86_30_alg».proof.Proof.Spec
import Idealize.ShloMosaic.Lib.Pipeline.Value
import Idealize.ShloMosaic.Lib.ValueIdx
import Idealize.ShloMosaic.Lib.StableHlo.Run
import proofs.«159024_g2000605899403188_pallasbulk_86_30_alg».proof.Proof.LibCanonUnit
set_option maxRecDepth 16384

noncomputable section

namespace Cert.KernelIdeal.KerRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, as the two stores' values: the convolution over the input copy. -/
theorem out_pieces (c : Dev nD) (i : grid0.Coords) (arg1 : Memref sig .tc .vmem S784x8x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S384x96 .f32) (harg6 : arg6.IsWhole) (arg7 : Memref sig .tc .vmem S784x8x288 .f32) (harg7 : arg7.IsWhole)
    (x0 : Vec Ideal S784x8x256 .f32) (x1 : Vec Ideal S1x256 .f32) (x2 : Vec Ideal S1x256 .f32) (x3 : Vec Ideal S256x128 .f32) (x4 : Vec Ideal S1x128 .f32) (x5 : Vec Ideal S384x96 .f32) :
    out0_A_6 c i arg1 harg1 arg2 harg2 arg3 harg3 arg4 harg4 arg5 harg5 arg6 harg6 arg7 harg7 x0 x1 x2 x3 x4 x5
      = View.canon
      [⟨Rect.unit ![0, 0, 256] ![784, 8, 32] inb_S784x8x288_S784x8x32_0_0_256, k0_pay1 (k0_pay3 x0 x1 x2 x3 x4 x5)⟩,
        ⟨Rect.unit ![0, 0, 0] ![784, 8, 256] inb_S784x8x288_S784x8x256_0_0_0, k0_pay2 x0⟩] := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  simp only [View.readAt_eq_ld, harg1.read_unread, harg2.read_unread, harg3.read_unread, harg4.read_unread, harg5.read_unread, harg6.read_unread,
    View.ld_unit_zero (S := S784x8x256) hz3, View.ld_unit_zero (S := S1x256) hz2, View.ld_unit_zero (S := S256x128) hz2,
    View.ld_unit_zero (S := S1x128) hz2, View.ld_unit_zero (S := S384x96) hz2]

/-- A channel below 256 of the output block is the input block's. -/
theorem canon_lo (x0 : Vec Ideal S784x8x256 .f32) (p : FVec Ideal S784x8x32 .f32) (hw : Fin 784) (bi : Fin 8) (ch : Fin 288) (h : ch.val < 256) :
    (View.canon
      [⟨Rect.unit ![0, 0, 256] ![784, 8, 32] inb_S784x8x288_S784x8x32_0_0_256, p⟩,
        ⟨Rect.unit ![0, 0, 0] ![784, 8, 256] inb_S784x8x288_S784x8x256_0_0_0, k0_pay2 x0⟩] : Vec Ideal S784x8x288 .f32) (ix3 hw bi ch)
      = x0 (ix3 hw bi (⟨ch.val, h⟩ : Fin 256)) := by
  refine (View.canon_cons_unit_skip (Val := Elt Ideal) (e := .f32) inb_S784x8x288_S784x8x32_0_0_256 p _ (ix3 hw bi ch) (2 : Fin 3) (Or.inl (by show ch.val < 256; exact h))).trans ?_
  refine (View.canon_cons_unit_hit (Val := Elt Ideal) (e := .f32) inb_S784x8x288_S784x8x256_0_0_0 (k0_pay2 x0) [] (ix3 hw bi ch) (ix3 hw bi (⟨ch.val, h⟩ : Fin 256)) (fun a => by
    match a with
    | ⟨0, _⟩ => show hw.val = 0 + hw.val; omega
    | ⟨1, _⟩ => show bi.val = 0 + bi.val; omega
    | ⟨2, _⟩ => show ch.val = 0 + ch.val; omega)).trans ?_
  unfold k0_pay2
  rw [shapeCast_self]

/-- A channel from 256 on is the convolution's. -/
theorem canon_hi (q : FVec Ideal S784x8x256 .f32) (p : FVec Ideal S784x8x32 .f32) (hw : Fin 784) (bi : Fin 8) (ch : Fin 288) (h : 256 ≤ ch.val) :
    (View.canon
      [⟨Rect.unit ![0, 0, 256] ![784, 8, 32] inb_S784x8x288_S784x8x32_0_0_256, p⟩,
        ⟨Rect.unit ![0, 0, 0] ![784, 8, 256] inb_S784x8x288_S784x8x256_0_0_0, q⟩] : Vec Ideal S784x8x288 .f32) (ix3 hw bi ch)
      = p (ix3 hw bi (⟨ch.val - 256, by have := ch.isLt; omega⟩ : Fin 32)) := by
  exact View.canon_cons_unit_hit (Val := Elt Ideal) (e := .f32) inb_S784x8x288_S784x8x32_0_0_256 p _ (ix3 hw bi ch) (ix3 hw bi (⟨ch.val - 256, by have := ch.isLt; omega⟩ : Fin 32)) (fun a => by
    match a with
    | ⟨0, _⟩ => show hw.val = 0 + hw.val; omega
    | ⟨1, _⟩ => show bi.val = 0 + bi.val; omega
    | ⟨2, _⟩ => show ch.val = 256 + (ch.val - 256); omega)

end Cert.KernelIdeal.KerRun

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«159024_g2000605899403188_pallasbulk_86_30_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LibAxes.lean ====
/-
  Layout operations read at an index given by coordinates, for the shapes a broadcast-add of two matrices over a new
  middle axis and a product over the merged leading axes go through:

  • a MIDDLE unit axis added by a shape cast, `[a, c] → [a, 1, c]` (`shapeCast_ac_a1c_apply`);
  • a broadcast along a middle unit axis, `[a, 1, c] → [a, b, c]` (`broadcastTo_a1c_abc_apply`), and along a
    leading unit axis, `[1, b, c] → [a, b, c]` (`broadcastTo_1bc_abc_apply`);
  • the two leading axes MERGED by a shape cast, `[a, b, c] → [n, c]` with `n = a · b`, and split again,
    `[n, c] → [a, b, c]`: row `r = i · b + j` of the matrix is entry `(i, j)` of the stack
    (`shapeCast_abc_nc_apply`, `shapeCast_nc_abc_apply`); the merged row is passed as its own `Fin n` with the
    equation `r = i · b + j`, so that a literal extent such as `2048` need not be recognised as a product;
  • a vector laid out as `[1, 1, c]` and broadcast to `[a, b, c]` (`shapeCast_c_11c_apply`,
    `broadcastTo_11c_abc_apply`): the bias row added to every entry of a stack of matrices.

  Each is the library's `shapeCast_apply` / `broadcastTo_apply` with the row-major or per-axis arithmetic done,
  for indices written `ix1 … ix3`. Library imports only.
-/
import Idealize.ShloMosaic.Lib.Pipeline.Value
import Idealize.ShloMosaic.Lib.ValueIdx

namespace Cert.LibAxes

open Idealize.ShloMosaic Idealize.ShloMosaic.ValueIdx

variable {α : Type}

/-- An `[a, c]` matrix cast to `[a, 1, c]` reads, at `(i, z, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack cast to an `[n, c]` matrix reads, at row `r = i · b + j` and column `k`, the stack at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to an `[a, b, c]` stack reads, at `(i, j, k)`, the matrix at row `r = i · b + j`,
    column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[c]` vector cast to `[1, 1, c]` reads, at `(z, z', k)`, the vector at `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    rw [hz, hz']
    simp)

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibDenseAt.lean ====
/-
  A dense layer with a clamp at zero, read at an index.

  A layer computes, for an input matrix l of shape [A, K], weights w of shape [K, B] and a bias row of shape [1, B],

      max (l · w + bias, 0)          (the product into a zero accumulator, the row added to every row, the maximum with +0)

  of shape [A, B]. On the extended reals its entry (p, q) is

      unit (row p of l) (column q of w) (bias q)  =  max (Σ_{k < K} l (p, k) · w (k, q) + bias (0, q)) 0,

  a finite sum of products, one addition and one maximum: `dense_at`. The zero is kept as the value of the f32 pattern of +0,
  as programs spell it, and is never evaluated. `unit_congr` compares two units input by input, weight by weight.
  General: nothing here depends on a particular program; an instance supplies its dimension numbers' two kept coordinates
  (`hl0`, `hr1`) and `rfl` four times, as for the product lemma this file builds on.
-/
import Idealize.ShloMosaic.Lib.ValueIdx
import Idealize.ShloMosaic.Lib.Pipeline.Value
import Idealize.ShloMosaic.PureOps.Ideal.Laws
import proofs.«159024_g2000605899403188_pallasbulk_86_30_alg».proof.Proof.LibProductAt

noncomputable section

namespace Cert.LibDenseAt

open Idealize.ShloMosaic Idealize.ShloMosaic.ValueIdx

/-- The zero a layer clamps at: the value of the f32 pattern of +0, kept as that pattern. -/
abbrev zero : EReal := Ideal.ofBits .f32 0x00000000#32

/-- One unit of a dense layer with the clamp: the inputs a against the unit's weights w, plus its bias, clamped at zero. -/
def unit {K : Nat} (a w : Fin K → EReal) (bias : EReal) : EReal :=
  max (∑ k : Fin K, a k * w k + bias) zero

/-- Two units over equal inputs and equal weights with equal biases are equal. -/
theorem unit_congr {K : Nat} {a a' w w' : Fin K → EReal} {bias bias' : EReal}
    (ha : ∀ k, a k = a' k) (hw : ∀ k, w k = w' k) (hb : bias = bias') : unit a w bias = unit a' w' bias' := by
  have ea : a = a' := funext ha
  have ew : w = w' := funext hw
  rw [ea, ew, hb]

/-- The index builder of the product lemma is the library's. -/
theorem at2_eq_ix2 {n0 n1 : Nat} (a : Fin n0) (b : Fin n1) :
    (Cert.ProductAt.at2 a.val a.isLt b.val b.isLt : (⟨2, ![n0, n1]⟩ : Shape).Idx) = ix2 a b := by
  funext d; match d with | ⟨0, _⟩ => rfl | ⟨1, _⟩ => rfl

/-- A dense layer with the clamp, read at row p and unit q: a product [A, K] × [K, B] into the zero accumulator, a bias row
    [1, B] added to every row, the maximum with zero — one unit of the specification over row p of the left factor, column q of
    the weights and entry q of the bias row. -/
theorem dense_at {A K B : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (w : FVec Ideal (⟨2, ![K, B]⟩ : Shape) φ₂)
    (row : FVec Ideal (⟨2, ![1, B]⟩ : Shape) .f32) (hbc : (⟨2, ![1, B]⟩ : Shape).Broadcasts ⟨2, ![A, B]⟩)
    (p : Fin A) (q : Fin B) :
    maximumf (addf (matmul d none l w (constant ⟨2, ![A, B]⟩ .f32 0x00000000#32)) (broadcastTo ⟨2, ![A, B]⟩ row hbc))
        (broadcast ⟨2, ![A, B]⟩ (Scalar.ofBits (F := Ideal) .f32 0x00000000#32)) (ix2 p q)
      = unit (fun k : Fin K => l (ix2 p k)) (fun k : Fin K => w (ix2 k q)) (row (ix2 (0 : Fin 1) q)) := by
  have e1 : matmul d none l w (constant ⟨2, ![A, B]⟩ .f32 0x00000000#32) (ix2 p q) = ∑ k : Fin K, l (ix2 p k) * w (ix2 k q) := by
    refine (Ideal.matmul_constant_zero_apply d none l w (ix2 p q)).trans ?_
    refine (Cert.ProductAt.product_sum_eq d hr hs hlc hrc hl0 hr1 l w (ix2 p q)).trans ?_
    refine Finset.sum_congr rfl fun k _ => ?_
    show l (Cert.ProductAt.at2 p.val p.isLt k.val k.isLt) * w (Cert.ProductAt.at2 k.val k.isLt q.val q.isLt) = l (ix2 p k) * w (ix2 k q)
    rw [at2_eq_ix2, at2_eq_ix2]
  have e2 : broadcastTo ⟨2, ![A, B]⟩ row hbc (ix2 p q) = row (ix2 (0 : Fin 1) q) := by
    refine broadcastTo_apply row hbc (ix2 p q) (ix2 (0 : Fin 1) q) fun ax => ?_
    match ax with
    | ⟨0, _⟩ => rfl
    | ⟨1, _⟩ =>
      show q.val = if B = 1 then 0 else q.val
      split
      · have := q.isLt; omega
      · rfl
  rw [maximumf_apply, addf_apply, broadcast_apply, e1, e2]
  rfl

end Cert.LibDenseAt

end
-- ==== Proof.KerPayAct.lean ====
/-
  The hidden activation of the fused program, read at an entry.

  The block x0 of shape [784, 8, 256] (position hw, image bi, channel k) is laid out as a matrix [6272, 256] whose row
  r = hw·8 + bi is the 256 channels of image bi at position hw. The program clamps x·s1 + b1 at zero and applies the dense
  layer with the clamp; entry (r, c) of the result is the specification's activation of image bi at position hw, channel c.
-/
import proofs.«159024_g2000605899403188_pallasbulk_86_30_alg».proof.Proof.Gen.KernelIdeal.Skeleton
import proofs.«159024_g2000605899403188_pallasbulk_86_30_alg».proof.Proof.Spec
import proofs.«159024_g2000605899403188_pallasbulk_86_30_alg».proof.Proof.LibDenseAt
import proofs.«159024_g2000605899403188_pallasbulk_86_30_alg».proof.Proof.LibPlainDot
import proofs.«159024_g2000605899403188_pallasbulk_86_30_alg».proof.Proof.LibAxes

noncomputable section

namespace Cert.KernelIdeal.KerPay

open Idealize.ShloMosaic Idealize.ShloMosaic.ValueIdx Cert.KernelIdeal Cert.KernelIdeal.Gen Cert.DenseConv

/-- The first stage: x·s1 + b1 clamped at zero, as a matrix [6272, 256]. -/
def hid (x0 : Vec Ideal S784x8x256 .f32) (x1 x2 : Vec Ideal S1x256 .f32) : FVec Ideal S6272x256 .f32 :=
  maximumf
    (addf
      (mulf (shapeCast S6272x256 (shapeCast S784x8x256 x0 shapeCasts_S784x8x256_S784x8x256) shapeCasts_S784x8x256_S6272x256)
        (broadcastTo S6272x256 x1 broadcasts_S1x256_S6272x256))
      (broadcastTo S6272x256 x2 broadcasts_S1x256_S6272x256))
    (broadcast S6272x256 (Scalar.ofBits (F := Ideal) .f32 0x00000000#32))

/-- The dense layer with its clamp over the first stage, as a matrix [6272, 128]. -/
def act (x0 : Vec Ideal S784x8x256 .f32) (x1 x2 : Vec Ideal S1x256 .f32) (x3 : Vec Ideal S256x128 .f32)
    (x4 : Vec Ideal S1x128 .f32) : FVec Ideal S6272x128 .f32 :=
  maximumf
    (addf
      (matmul (φ₂ := .f32) dot_S6272x256_S256x128_S6272x128_1_0_0_1_n_n none (hid x0 x1 x2)
        x3 (constant S6272x128 .f32 0x00000000#32))
      (broadcastTo S6272x128 x4 broadcasts_S1x128_S6272x128))
    (broadcast S6272x128 (Scalar.ofBits (F := Ideal) .f32 0x00000000#32))

/-- A row [1, B] broadcast to [A, B] reads, at (p, q), the row at (0, q). -/
theorem row_at {A B : Nat} (row : FVec Ideal (⟨2, ![1, B]⟩ : Shape) .f32)
    (hbc : (⟨2, ![1, B]⟩ : Shape).Broadcasts ⟨2, ![A, B]⟩) (p : Fin A) (q : Fin B) :
    broadcastTo ⟨2, ![A, B]⟩ row hbc (ix2 p q) = row (ix2 (0 : Fin 1) q) := by
  refine broadcastTo_apply row hbc (ix2 p q) (ix2 (0 : Fin 1) q) fun ax => ?_
  match ax with
  | ⟨0, _⟩ => rfl
  | ⟨1, _⟩ =>
    show q.val = if B = 1 then 0 else q.val
    split
    · have := q.isLt; omega
    · rfl

/-- The first stage at row r = hw·8 + bi, channel k. -/
theorem hid_at (x0 : Vec Ideal S784x8x256 .f32) (x1 x2 : Vec Ideal S1x256 .f32) (hw : Fin 784) (bi : Fin 8) (k : Fin 256)
    (r : Fin 6272) (hr : r.val = hw.val * 8 + bi.val) :
    hid x0 x1 x2 (ix2 r k)
      = max (x0 (ix3 hw bi k) * x1 (ix2 (0 : Fin 1) k) + x2 (ix2 (0 : Fin 1) k)) zero := by
  unfold hid
  rw [maximumf_apply, addf_apply, mulf_apply, broadcast_apply, shapeCast_self,
    Cert.LibAxes.shapeCast_abc_nc_apply x0 shapeCasts_S784x8x256_S6272x256 hw bi k r hr,
    row_at x1 broadcasts_S1x256_S6272x256 r k, row_at x2 broadcasts_S1x256_S6272x256 r k]
  rfl

/-- The activation at row r = (i·28 + j)·8 + bi, channel c: the specification's activation of image bi. -/
theorem act_at (x0 : Vec Ideal S784x8x256 .f32) (x1 x2 : Vec Ideal S1x256 .f32) (x3 : Vec Ideal S256x128 .f32)
    (x4 : Vec Ideal S1x128 .f32) (i j : Fin 28) (bi : Fin 8) (c : Fin 128)
    (r : Fin 6272) (hr : r.val = (i.val * 28 + j.val) * 8 + bi.val) :
    act x0 x1 x2 x3 x4 (ix2 r c)
      = actOf (fun i' j' k => x0 (ix3 (⟨i'.val * 28 + j'.val, by have := i'.isLt; have := j'.isLt; omega⟩ : Fin 784) bi k))
          x1 x2 x3 x4 i j c := by
  unfold act
  refine (Cert.LibDenseAt.dense_at dot_S6272x256_S256x128_S6272x128_1_0_0_1_n_n rfl rfl rfl rfl
    (Cert.LibPlainDot.lhs_row _ rfl rfl) (Cert.LibPlainDot.rhs_col _ rfl rfl rfl rfl)
    (hid x0 x1 x2) x3 x4 broadcasts_S1x128_S6272x128 r c).trans ?_
  unfold Cert.LibDenseAt.unit actOf
  have e : ∀ k : Fin 256, hid x0 x1 x2 (ix2 r k)
      = max (x0 (ix3 (⟨i.val * 28 + j.val, by have := i.isLt; have := j.isLt; omega⟩ : Fin 784) bi k) * x1 (ix2 (0 : Fin 1) k)
          + x2 (ix2 (0 : Fin 1) k)) zero :=
    fun k => hid_at x0 x1 x2 _ bi k r hr
  simp only [e]

end Cert.KernelIdeal.KerPay

end
-- ==== Proof.KerPayCat.lean ====
/-
  The three column neighbours of the activation set side by side, read at an entry.

  The activation T of shape [6272, 128] (row r = (i·28 + j)·8 + bi) is viewed as a stack [28, 224, 128] (row i, middle index
  q = j·8 + bi). Shifting the middle index by 8 moves one column: the left neighbour reads q − 8 (a zero block for q < 8,
  column j = 0), the right neighbour reads q + 8 (a zero block for q ≥ 216, column j = 27). The three are set side by side
  along the last axis: entry (i, q, b·128 + c) is the activation padded with zeros at row i, column j + b − 1, channel c.
-/
import proofs.«159024_g2000605899403188_pallasbulk_86_30_alg».proof.Proof.Gen.KernelIdeal.Skeleton
import proofs.«159024_g2000605899403188_pallasbulk_86_30_alg».proof.Proof.Spec
import proofs.«159024_g2000605899403188_pallasbulk_86_30_alg».proof.Proof.LibAxes
import Idealize.ShloMosaic.PureOps.Ideal.Laws

noncomputable section

namespace Cert.KernelIdeal.KerPay

open Idealize.ShloMosaic Idealize.ShloMosaic.ValueIdx Cert.KernelIdeal Cert.KernelIdeal.Gen Cert.DenseConv

/-- The activation as a stack [28, 224, 128]. -/
def stack (T : FVec Ideal S6272x128 .f32) : FVec Ideal S28x224x128 .f32 :=
  shapeCast S28x224x128 T shapeCasts_S6272x128_S28x224x128

/-- A block of 8 middle indices filled with the zero pattern. -/
def zeroBlk : FVec Ideal S28x8x128 .f32 := broadcast S28x8x128 (Scalar.ofBits (F := Ideal) .f32 0x00000000#32)

/-- The stack's first 216 middle indices. -/
def lowSl (T : FVec Ideal S6272x128 .f32) : FVec Ideal S28x216x128 .f32 :=
  extractStridedSlice S28x216x128 ![0, 0, 0] (stack T) slices_S28x224x128_o0_0_0_S28x216x128

/-- The stack's last 216 middle indices. -/
def highSl (T : FVec Ideal S6272x128 .f32) : FVec Ideal S28x216x128 .f32 :=
  extractStridedSlice S28x216x128 ![0, 8, 0] (stack T) slices_S28x224x128_o0_8_0_S28x216x128

/-- The left column neighbour: a zero block of 8, then the stack's first 216 middle indices. -/
def leftN (T : FVec Ideal S6272x128 .f32) : FVec Ideal S28x224x128 .f32 :=
  concatenate S28x224x128 1 [⟨S28x8x128, zeroBlk⟩, ⟨S28x216x128, lowSl T⟩] concatenates_S28x8x128_S28x216x128_S28x224x128_d1

/-- The right column neighbour: the stack's last 216 middle indices, then a zero block of 8. -/
def rightN (T : FVec Ideal S6272x128 .f32) : FVec Ideal S28x224x128 .f32 :=
  concatenate S28x224x128 1 [⟨S28x216x128, highSl T⟩, ⟨S28x8x128, zeroBlk⟩] concatenates_S28x216x128_S28x8x128_S28x224x128_d1

/-- The zero block holds the number 0. -/
theorem zeroBlk_at (j : S28x8x128.Idx) : zeroBlk j = 0 := by
  unfold zeroBlk
  rw [broadcast_apply]
  exact Ideal.ofBits_zero_f32

/-- Left neighbour, the stack, right neighbour side by side along the last axis: [28, 224, 384]. -/
def cat (T : FVec Ideal S6272x128 .f32) : FVec Ideal S28x224x384 .f32 :=
  concatenate S28x224x384 2 [⟨S28x224x128, leftN T⟩, ⟨S28x224x128, stack T⟩, ⟨S28x224x128, rightN T⟩]
    concatenates_S28x224x128_S28x224x128_S28x224x128_S28x224x384_d2

/-- The stack at (i, q, c) is the matrix at row i·224 + q. -/
theorem stack_at (T : FVec Ideal S6272x128 .f32) (i : Fin 28) (q : Fin 224) (c : Fin 128) (r : Fin 6272)
    (hr : r.val = i.val * 224 + q.val) : stack T (ix3 i q c) = T (ix2 r c) :=
  Cert.LibAxes.shapeCast_nc_abc_apply T shapeCasts_S6272x128_S28x224x128 i q c r hr

/-- The left neighbour over the first 8 middle indices is the zero block. -/
theorem leftN_lo (T : FVec Ideal S6272x128 .f32) (i : Fin 28) (q : Fin 224) (c : Fin 128) (hq : q.val < 8) :
    leftN T (ix3 i q c) = 0 := by
  unfold leftN
  refine (concatenate_pair_apply_left (t := S28x224x128) (s₁ := S28x8x128) (s₂ := S28x216x128) (1 : Fin 3) zeroBlk (lowSl T)
    concatenates_S28x8x128_S28x216x128_S28x224x128_d1 (ix3 i q c) rfl
    (ix3 i (⟨q.val, hq⟩ : Fin 8) c) fun b => ?_).trans (zeroBlk_at _)
  match b with
  | ⟨0, _⟩ => rfl
  | ⟨1, _⟩ => rfl
  | ⟨2, _⟩ => rfl

/-- The left neighbour past the first 8 middle indices is the stack 8 middle indices earlier. -/
theorem leftN_hi (T : FVec Ideal S6272x128 .f32) (i : Fin 28) (q q' : Fin 224) (c : Fin 128) (hq : q'.val + 8 = q.val) :
    leftN T (ix3 i q c) = stack T (ix3 i q' c) := by
  unfold leftN
  refine (concatenate_pair_apply_right (t := S28x224x128) (s₁ := S28x8x128) (s₂ := S28x216x128) (1 : Fin 3) zeroBlk (lowSl T)
    concatenates_S28x8x128_S28x216x128_S28x224x128_d1 (ix3 i q c) rfl rfl
    (ix3 i (⟨q'.val, by have := q.isLt; omega⟩ : Fin 216) c) (fun b hb => ?_) ?_).trans ?_
  · match b with
    | ⟨0, _⟩ => rfl
    | ⟨1, _⟩ => exact absurd rfl hb
    | ⟨2, _⟩ => rfl
  · exact hq
  · unfold lowSl
    refine extractStridedSlice_apply _ (stack T) slices_S28x224x128_o0_0_0_S28x216x128 _ (ix3 i q' c) fun a => ?_
    match a with
    | ⟨0, _⟩ => show i.val = 0 + i.val; omega
    | ⟨1, _⟩ => show q'.val = 0 + q'.val; omega
    | ⟨2, _⟩ => show c.val = 0 + c.val; omega

/-- The right neighbour over the first 216 middle indices is the stack 8 middle indices later. -/
theorem rightN_lo (T : FVec Ideal S6272x128 .f32) (i : Fin 28) (q q' : Fin 224) (c : Fin 128) (hq : q'.val = q.val + 8) :
    rightN T (ix3 i q c) = stack T (ix3 i q' c) := by
  unfold rightN
  refine (concatenate_pair_apply_left (t := S28x224x128) (s₁ := S28x216x128) (s₂ := S28x8x128) (1 : Fin 3) (highSl T) zeroBlk
    concatenates_S28x216x128_S28x8x128_S28x224x128_d1 (ix3 i q c) rfl
    (ix3 i (⟨q.val, by have := q'.isLt; omega⟩ : Fin 216) c) fun b => ?_).trans ?_
  · match b with
    | ⟨0, _⟩ => rfl
    | ⟨1, _⟩ => rfl
    | ⟨2, _⟩ => rfl
  · unfold highSl
    refine extractStridedSlice_apply _ (stack T) slices_S28x224x128_o0_8_0_S28x216x128 _ (ix3 i q' c) fun a => ?_
    match a with
    | ⟨0, _⟩ => show i.val = 0 + i.val; omega
    | ⟨1, _⟩ => show q'.val = 8 + q.val; omega
    | ⟨2, _⟩ => show c.val = 0 + c.val; omega

/-- The right neighbour over the last 8 middle indices is the zero block. -/
theorem rightN_hi (T : FVec Ideal S6272x128 .f32) (i : Fin 28) (q : Fin 224) (c : Fin 128) (hq : 216 ≤ q.val) :
    rightN T (ix3 i q c) = 0 := by
  unfold rightN
  refine (concatenate_pair_apply_right (t := S28x224x128) (s₁ := S28x216x128) (s₂ := S28x8x128) (1 : Fin 3) (highSl T) zeroBlk
    concatenates_S28x216x128_S28x8x128_S28x224x128_d1 (ix3 i q c) rfl rfl
    (ix3 i (⟨q.val - 216, by have := q.isLt; omega⟩ : Fin 8) c) (fun b hb => ?_) ?_).trans (zeroBlk_at _)
  · match b with
    | ⟨0, _⟩ => rfl
    | ⟨1, _⟩ => exact absurd rfl hb
    | ⟨2, _⟩ => rfl
  · show q.val - 216 + 216 = q.val
    omega

/-- The first third of the last axis is the left neighbour. -/
theorem cat_at0 (T : FVec Ideal S6272x128 .f32) (i : Fin 28) (q : Fin 224) (k' : Fin 384) (c : Fin 128)
    (hk : k'.val = c.val) : cat T (ix3 i q k') = leftN T (ix3 i q c) := by
  unfold cat
  exact concatenate_apply_piece (t := S28x224x384) (2 : Fin 3)
    [⟨S28x224x128, leftN T⟩, ⟨S28x224x128, stack T⟩, ⟨S28x224x128, rightN T⟩]
    concatenates_S28x224x128_S28x224x128_S28x224x128_S28x224x384_d2 (ix3 i q k')
    0 (by show (0 : Nat) < 3; omega) S28x224x128 (leftN T) rfl rfl 0 rfl (ix3 i q c)
    (fun b hb => by
      match b with
      | ⟨0, _⟩ => rfl
      | ⟨1, _⟩ => rfl
      | ⟨2, _⟩ => exact absurd rfl hb)
    (by show 0 + c.val = k'.val; omega)

/-- The middle third of the last axis is the stack itself. -/
theorem cat_at1 (T : FVec Ideal S6272x128 .f32) (i : Fin 28) (q : Fin 224) (k' : Fin 384) (c : Fin 128)
    (hk : k'.val = 128 + c.val) : cat T (ix3 i q k') = stack T (ix3 i q c) := by
  unfold cat
  exact concatenate_apply_piece (t := S28x224x384) (2 : Fin 3)
    [⟨S28x224x128, leftN T⟩, ⟨S28x224x128, stack T⟩, ⟨S28x224x128, rightN T⟩]
    concatenates_S28x224x128_S28x224x128_S28x224x128_S28x224x384_d2 (ix3 i q k')
    1 (by show (1 : Nat) < 3; omega) S28x224x128 (stack T) rfl rfl 128 rfl (ix3 i q c)
    (fun b hb => by
      match b with
      | ⟨0, _⟩ => rfl
      | ⟨1, _⟩ => rfl
      | ⟨2, _⟩ => exact absurd rfl hb)
    (by show 128 + c.val = k'.val; omega)

/-- The last third of the last axis is the right neighbour. -/
theorem cat_at2 (T : FVec Ideal S6272x128 .f32) (i : Fin 28) (q : Fin 224) (k' : Fin 384) (c : Fin 128)
    (hk : k'.val = 256 + c.val) : cat T (ix3 i q k') = rightN T (ix3 i q c) := by
  unfold cat
  exact concatenate_apply_piece (t := S28x224x384) (2 : Fin 3)
    [⟨S28x224x128, leftN T⟩, ⟨S28x224x128, stack T⟩, ⟨S28x224x128, rightN T⟩]
    concatenates_S28x224x128_S28x224x128_S28x224x128_S28x224x384_d2 (ix3 i q k')
    2 (by show (2 : Nat) < 3; omega) S28x224x128 (rightN T) rfl rfl 256 rfl (ix3 i q c)
    (fun b hb => by
      match b with
      | ⟨0, _⟩ => rfl
      | ⟨1, _⟩ => rfl
      | ⟨2, _⟩ => exact absurd rfl hb)
    (by show 256 + c.val = k'.val; omega)

/-- A padded position inside the image. -/
theorem pad_in (T' : Fin 28 → Fin 28 → Fin 128 → EReal) (r s : ℕ) (c : Fin 128) (i j : Fin 28)
    (hr : r = i.val + 1) (hs : s = j.val + 1) : DenseConv.pad T' r s c = T' i j c := by
  subst hr hs
  unfold DenseConv.pad
  rw [dif_pos ⟨⟨by omega, by have := i.isLt; omega⟩, ⟨by omega, by have := j.isLt; omega⟩⟩]
  rfl

/-- A padded position outside the image. -/
theorem pad_out (T' : Fin 28 → Fin 28 → Fin 128 → EReal) (r s : ℕ) (c : Fin 128)
    (h : ¬((1 ≤ r ∧ r ≤ 28) ∧ (1 ≤ s ∧ s ≤ 28))) : DenseConv.pad T' r s c = 0 := by
  unfold DenseConv.pad
  rw [dif_neg h]

/-- The side-by-side array at (i, q, k'), q = j·8 + bi: the padded activation of image bi at row i, column j + k'/128 − 1,
    channel k' mod 128, when the matrix T holds the activation T' of image bi at rows (i·28 + j)·8 + bi. -/
theorem cat_pad (T : FVec Ideal S6272x128 .f32) (T' : Fin 28 → Fin 28 → Fin 128 → EReal) (bi : Fin 8)
    (hT : ∀ (i j : Fin 28) (c : Fin 128) (r : Fin 6272), r.val = (i.val * 28 + j.val) * 8 + bi.val → T (ix2 r c) = T' i j c)
    (i j : Fin 28) (q : Fin 224) (hq : q.val = j.val * 8 + bi.val) (k' : Fin 384) :
    cat T (ix3 i q k')
      = DenseConv.pad T' (i.val + 1) (j.val + k'.val / 128) (⟨k'.val % 128, Nat.mod_lt _ (by norm_num)⟩ : Fin 128) := by
  have hi := i.isLt
  have hj := j.isLt
  have hb := bi.isLt
  have hk' := k'.isLt
  have hst : ∀ (j' : Fin 28) (q' : Fin 224) (c : Fin 128), q'.val = j'.val * 8 + bi.val → stack T (ix3 i q' c) = T' i j' c :=
    fun j' q' c hq' =>
      (stack_at T i q' c ⟨i.val * 224 + q'.val, by have := q'.isLt; omega⟩ rfl).trans
        (hT i j' c _ (by show i.val * 224 + q'.val = (i.val * 28 + j'.val) * 8 + bi.val; omega))
  by_cases h0 : k'.val < 128
  · rw [cat_at0 T i q k' ⟨k'.val % 128, Nat.mod_lt _ (by norm_num)⟩ (by show k'.val = k'.val % 128; omega)]
    by_cases hj0 : j.val = 0
    · rw [leftN_lo T i q _ (by omega), pad_out T' _ _ _ (by omega)]
    · rw [leftN_hi T i q ⟨q.val - 8, by omega⟩ _ (by show q.val - 8 + 8 = q.val; omega),
        hst ⟨j.val - 1, by omega⟩ _ _ (by show q.val - 8 = (j.val - 1) * 8 + bi.val; omega),
        pad_in T' _ _ _ i ⟨j.val - 1, by omega⟩ rfl (by show j.val + k'.val / 128 = j.val - 1 + 1; omega)]
  · by_cases h1 : k'.val < 256
    · rw [cat_at1 T i q k' ⟨k'.val % 128, Nat.mod_lt _ (by norm_num)⟩ (by show k'.val = 128 + k'.val % 128; omega),
        hst j q _ hq, pad_in T' _ _ _ i j rfl (by omega)]
    · rw [cat_at2 T i q k' ⟨k'.val % 128, Nat.mod_lt _ (by norm_num)⟩ (by show k'.val = 256 + k'.val % 128; omega)]
      by_cases hj27 : j.val = 27
      · rw [rightN_hi T i q _ (by omega), pad_out T' _ _ _ (by omega)]
      · rw [rightN_lo T i q ⟨q.val + 8, by omega⟩ _ rfl,
          hst ⟨j.val + 1, by omega⟩ _ _ (by show q.val + 8 = (j.val + 1) * 8 + bi.val; omega),
          pad_in T' _ _ _ i ⟨j.val + 1, by omega⟩ rfl (by show j.val + k'.val / 128 = j.val + 1 + 1; omega)]

end Cert.KernelIdeal.KerPay

end
-- ==== Proof.KerPayProd.lean ====
/-
  The product of the side-by-side neighbours with the regrouped weights, read at an entry.

  The array [28, 224, 384] of the three column neighbours is laid out as a matrix [6272, 384] (row r = i·224 + q) and
  multiplied by the weights [384, 96] into the zero accumulator. Entry (r, n) is the contraction, over the 384 entries
  k' = b·128 + c, of the padded activation at row i, column j + b − 1, channel c with the weights' column n: one of the
  three row blocks of the 3×3 window's contraction.
-/
import proofs.«159024_g2000605899403188_pallasbulk_86_30_alg».proof.Proof.Gen.KernelIdeal.Skeleton
import proofs.«159024_g2000605899403188_pallasbulk_86_30_alg».proof.Proof.Spec
import proofs.«159024_g2000605899403188_pallasbulk_86_30_alg».proof.Proof.LibPlainDot
import proofs.«159024_g2000605899403188_pallasbulk_86_30_alg».proof.Proof.LibAxes
import proofs.«159024_g2000605899403188_pallasbulk_86_30_alg».proof.Proof.KerPayAct
import proofs.«159024_g2000605899403188_pallasbulk_86_30_alg».proof.Proof.KerPayCat

noncomputable section

open scoped BigOperators

namespace Cert.KernelIdeal.KerPay

open Idealize.ShloMosaic Idealize.ShloMosaic.ValueIdx Cert.KernelIdeal Cert.KernelIdeal.Gen Cert.DenseConv

/-- One row block of the window's contraction: the padded activation's row rr (rows counted from 1), the three columns around
    column j, against the weights' column n. -/
def rowSum (T' : Fin 28 → Fin 28 → Fin 128 → EReal) (x5 : Vec Ideal S384x96 .f32) (rr : ℕ) (j : Fin 28) (n : Fin 96) : EReal :=
  ∑ k' : Fin 384, DenseConv.pad T' rr (j.val + k'.val / 128) (⟨k'.val % 128, Nat.mod_lt _ (by norm_num)⟩ : Fin 128) * x5 (ix2 k' n)

/-- Row blocks at equal rows and equal weight columns are equal. -/
theorem rowSum_congr (T' : Fin 28 → Fin 28 → Fin 128 → EReal) (x5 : Vec Ideal S384x96 .f32) (rr rr' : ℕ) (j : Fin 28)
    (n n' : Fin 96) (hr : rr = rr') (hn : n.val = n'.val) : rowSum T' x5 rr j n = rowSum T' x5 rr' j n' := by
  have e : n = n' := Fin.ext hn
  rw [hr, e]

/-- A row block outside the image is zero: every padded entry is. -/
theorem rowSum_out (T' : Fin 28 → Fin 28 → Fin 128 → EReal) (x5 : Vec Ideal S384x96 .f32) (rr : ℕ) (j : Fin 28) (n : Fin 96)
    (h : ¬(1 ≤ rr ∧ rr ≤ 28)) : rowSum T' x5 rr j n = 0 := by
  unfold rowSum
  refine Finset.sum_eq_zero fun k' _ => ?_
  rw [pad_out T' _ _ _ (fun hh => h hh.1), zero_mul]

/-- The program's product is the plain product of the side-by-side neighbours, as a matrix, with the weights. -/
theorem prod_at (x0 : Vec Ideal S784x8x256 .f32) (x1 x2 : Vec Ideal S1x256 .f32) (x3 : Vec Ideal S256x128 .f32)
    (x4 : Vec Ideal S1x128 .f32) (x5 : Vec Ideal S384x96 .f32) (i j : Fin 28) (bi : Fin 8) (n : Fin 96)
    (r : Fin 6272) (hr : r.val = i.val * 224 + (j.val * 8 + bi.val)) :
    k0_pay3 x0 x1 x2 x3 x4 x5 (ix2 r n)
      = rowSum (actOf (fun i' j' k => x0 (ix3 (⟨i'.val * 28 + j'.val, by have := i'.isLt; have := j'.isLt; omega⟩ : Fin 784) bi k))
          x1 x2 x3 x4) x5 (i.val + 1) j n := by
  have hj := j.isLt
  have hb := bi.isLt
  refine (Cert.LibPlainDot.matmul_zero_at dot_S6272x384_S384x96_S6272x96_1_0_0_1_n_n rfl rfl rfl rfl rfl rfl rfl rfl none
    (shapeCast S6272x384 (cat (act x0 x1 x2 x3 x4)) shapeCasts_S28x224x384_S6272x384)
    (shapeCast S384x96 (x5 : FVec Ideal S384x96 .f32) shapeCasts_S384x96_S384x96) r n).trans ?_
  unfold rowSum
  refine Finset.sum_congr rfl fun k' _ => ?_
  rw [shapeCast_self,
    Cert.LibAxes.shapeCast_abc_nc_apply (cat (act x0 x1 x2 x3 x4)) shapeCasts_S28x224x384_S6272x384 i
      (⟨j.val * 8 + bi.val, by omega⟩ : Fin 224) k' r hr,
    cat_pad (act x0 x1 x2 x3 x4)
      (actOf (fun i' j' k => x0 (ix3 (⟨i'.val * 28 + j'.val, by have := i'.isLt; have := j'.isLt; omega⟩ : Fin 784) bi k)) x1 x2 x3 x4)
      bi (fun i' j' c r' hr' => act_at x0 x1 x2 x3 x4 i' j' bi c r' hr') i j _ rfl k']

end Cert.KernelIdeal.KerPay

end
-- ==== Proof.KerPayShift.lean ====
/-
  The three row blocks of the product added with row shifts, read at an entry.

  The product P of shape [6272, 96] is viewed as a stack [28, 224, 96] (row i, middle index q). Its 96 columns are three groups
  of 32: group 1 is added as it stands, group 0 shifted one row down (row i reads row i − 1, a zero row for i = 0), group 2
  shifted one row up (row i reads row i + 1, a zero row for i = 27).
-/
import proofs.«159024_g2000605899403188_pallasbulk_86_30_alg».proof.Proof.Gen.KernelIdeal.Skeleton
import proofs.«159024_g2000605899403188_pallasbulk_86_30_alg».proof.Proof.LibAxes
import Idealize.ShloMosaic.PureOps.Ideal.Laws

noncomputable section

namespace Cert.KernelIdeal.KerPay

open Idealize.ShloMosaic Idealize.ShloMosaic.ValueIdx Cert.KernelIdeal Cert.KernelIdeal.Gen

/-- The product as a stack [28, 224, 96]. -/
def stackP (P : FVec Ideal S6272x96 .f32) : FVec Ideal S28x224x96 .f32 :=
  shapeCast S28x224x96 P shapeCasts_S6272x96_S28x224x96

/-- Column group 1. -/
def grp1 (P : FVec Ideal S6272x96 .f32) : FVec Ideal S28x224x32 .f32 :=
  extractStridedSlice S28x224x32 ![0, 0, 32] (stackP P) slices_S28x224x96_o0_0_32_S28x224x32

/-- Column group 0. -/
def grp0 (P : FVec Ideal S6272x96 .f32) : FVec Ideal S28x224x32 .f32 :=
  extractStridedSlice S28x224x32 ![0, 0, 0] (stackP P) slices_S28x224x96_o0_0_0_S28x224x32

/-- Column group 2. -/
def grp2 (P : FVec Ideal S6272x96 .f32) : FVec Ideal S28x224x32 .f32 :=
  extractStridedSlice S28x224x32 ![0, 0, 64] (stackP P) slices_S28x224x96_o0_0_64_S28x224x32

/-- A row filled with the zero pattern. -/
def zeroRow : FVec Ideal S1x224x32 .f32 := broadcast S1x224x32 (Scalar.ofBits (F := Ideal) .f32 0x00000000#32)

/-- The first 27 rows of a stack. -/
def rows0 (v : FVec Ideal S28x224x32 .f32) : FVec Ideal S27x224x32 .f32 :=
  extractStridedSlice S27x224x32 ![0, 0, 0] v slices_S28x224x32_o0_0_0_S27x224x32

/-- The last 27 rows of a stack. -/
def rows1 (v : FVec Ideal S28x224x32 .f32) : FVec Ideal S27x224x32 .f32 :=
  extractStridedSlice S27x224x32 ![1, 0, 0] v slices_S28x224x32_o1_0_0_S27x224x32

/-- A stack shifted one row down: a zero row, then its first 27 rows. -/
def down (v : FVec Ideal S28x224x32 .f32) : FVec Ideal S28x224x32 .f32 :=
  concatenate S28x224x32 0 [⟨S1x224x32, zeroRow⟩, ⟨S27x224x32, rows0 v⟩] concatenates_S1x224x32_S27x224x32_S28x224x32_d0

/-- A stack shifted one row up: its last 27 rows, then a zero row. -/
def up (v : FVec Ideal S28x224x32 .f32) : FVec Ideal S28x224x32 .f32 :=
  concatenate S28x224x32 0 [⟨S27x224x32, rows1 v⟩, ⟨S1x224x32, zeroRow⟩] concatenates_S27x224x32_S1x224x32_S28x224x32_d0

/-- The program's stored value is the three groups added, as an array [784, 8, 32]. -/
theorem pay1_eq (P : FVec Ideal S6272x96 .f32) :
    k0_pay1 P = shapeCast S784x8x32 (addf (addf (grp1 P) (down (grp0 P))) (up (grp2 P))) shapeCasts_S28x224x32_S784x8x32 := rfl

/-- The zero row holds the number 0. -/
theorem zeroRow_at (j : S1x224x32.Idx) : zeroRow j = 0 := by
  unfold zeroRow
  rw [broadcast_apply]
  exact Ideal.ofBits_zero_f32

/-- The stack at (i, q, n) is the matrix at row i·224 + q. -/
theorem stackP_at (P : FVec Ideal S6272x96 .f32) (i : Fin 28) (q : Fin 224) (n : Fin 96) (r : Fin 6272)
    (hr : r.val = i.val * 224 + q.val) : stackP P (ix3 i q n) = P (ix2 r n) :=
  Cert.LibAxes.shapeCast_nc_abc_apply P shapeCasts_S6272x96_S28x224x96 i q n r hr

/-- Column g of group 1 is column 32 + g. -/
theorem grp1_at (P : FVec Ideal S6272x96 .f32) (i : Fin 28) (q : Fin 224) (g : Fin 32) (n : Fin 96) (hn : n.val = 32 + g.val) :
    grp1 P (ix3 i q g) = stackP P (ix3 i q n) := by
  unfold grp1
  refine extractStridedSlice_apply _ (stackP P) slices_S28x224x96_o0_0_32_S28x224x32 _ (ix3 i q n) fun a => ?_
  match a with
  | ⟨0, _⟩ => show i.val = 0 + i.val; omega
  | ⟨1, _⟩ => show q.val = 0 + q.val; omega
  | ⟨2, _⟩ => show n.val = 32 + g.val; omega

/-- Column g of group 0 is column g. -/
theorem grp0_at (P : FVec Ideal S6272x96 .f32) (i : Fin 28) (q : Fin 224) (g : Fin 32) (n : Fin 96) (hn : n.val = g.val) :
    grp0 P (ix3 i q g) = stackP P (ix3 i q n) := by
  unfold grp0
  refine extractStridedSlice_apply _ (stackP P) slices_S28x224x96_o0_0_0_S28x224x32 _ (ix3 i q n) fun a => ?_
  match a with
  | ⟨0, _⟩ => show i.val = 0 + i.val; omega
  | ⟨1, _⟩ => show q.val = 0 + q.val; omega
  | ⟨2, _⟩ => show n.val = 0 + g.val; omega

/-- Column g of group 2 is column 64 + g. -/
theorem grp2_at (P : FVec Ideal S6272x96 .f32) (i : Fin 28) (q : Fin 224) (g : Fin 32) (n : Fin 96) (hn : n.val = 64 + g.val) :
    grp2 P (ix3 i q g) = stackP P (ix3 i q n) := by
  unfold grp2
  refine extractStridedSlice_apply _ (stackP P) slices_S28x224x96_o0_0_64_S28x224x32 _ (ix3 i q n) fun a => ?_
  match a with
  | ⟨0, _⟩ => show i.val = 0 + i.val; omega
  | ⟨1, _⟩ => show q.val = 0 + q.val; omega
  | ⟨2, _⟩ => show n.val = 64 + g.val; omega

/-- The shift down at row 0 is the zero row. -/
theorem down_lo (v : FVec Ideal S28x224x32 .f32) (i : Fin 28) (q : Fin 224) (g : Fin 32) (hi : i.val = 0) :
    down v (ix3 i q g) = 0 := by
  unfold down
  refine (concatenate_pair_apply_left (t := S28x224x32) (s₁ := S1x224x32) (s₂ := S27x224x32) (0 : Fin 3) zeroRow (rows0 v)
    concatenates_S1x224x32_S27x224x32_S28x224x32_d0 (ix3 i q g) rfl
    (ix3 (0 : Fin 1) q g) fun b => ?_).trans (zeroRow_at _)
  match b with
  | ⟨0, _⟩ => exact hi.symm
  | ⟨1, _⟩ => rfl
  | ⟨2, _⟩ => rfl

/-- The shift down at a row past 0 is the row before. -/
theorem down_hi (v : FVec Ideal S28x224x32 .f32) (i i' : Fin 28) (q : Fin 224) (g : Fin 32) (hi : i'.val + 1 = i.val) :
    down v (ix3 i q g) = v (ix3 i' q g) := by
  unfold down
  refine (concatenate_pair_apply_right (t := S28x224x32) (s₁ := S1x224x32) (s₂ := S27x224x32) (0 : Fin 3) zeroRow (rows0 v)
    concatenates_S1x224x32_S27x224x32_S28x224x32_d0 (ix3 i q g) rfl rfl
    (ix3 (⟨i'.val, by have := i.isLt; omega⟩ : Fin 27) q g) (fun b hb => ?_) ?_).trans ?_
  · match b with
    | ⟨0, _⟩ => exact absurd rfl hb
    | ⟨1, _⟩ => rfl
    | ⟨2, _⟩ => rfl
  · exact hi
  · unfold rows0
    refine extractStridedSlice_apply _ v slices_S28x224x32_o0_0_0_S27x224x32 _ (ix3 i' q g) fun a => ?_
    match a with
    | ⟨0, _⟩ => show i'.val = 0 + i'.val; omega
    | ⟨1, _⟩ => show q.val = 0 + q.val; omega
    | ⟨2, _⟩ => show g.val = 0 + g.val; omega

/-- The shift up at a row before 27 is the row after. -/
theorem up_lo (v : FVec Ideal S28x224x32 .f32) (i i' : Fin 28) (q : Fin 224) (g : Fin 32) (hi : i'.val = i.val + 1) :
    up v (ix3 i q g) = v (ix3 i' q g) := by
  unfold up
  refine (concatenate_pair_apply_left (t := S28x224x32) (s₁ := S27x224x32) (s₂ := S1x224x32) (0 : Fin 3) (rows1 v) zeroRow
    concatenates_S27x224x32_S1x224x32_S28x224x32_d0 (ix3 i q g) rfl
    (ix3 (⟨i.val, by have := i'.isLt; omega⟩ : Fin 27) q g) fun b => ?_).trans ?_
  · match b with
    | ⟨0, _⟩ => rfl
    | ⟨1, _⟩ => rfl
    | ⟨2, _⟩ => rfl
  · unfold rows1
    refine extractStridedSlice_apply _ v slices_S28x224x32_o1_0_0_S27x224x32 _ (ix3 i' q g) fun a => ?_
    match a with
    | ⟨0, _⟩ => show i'.val = 1 + i.val; omega
    | ⟨1, _⟩ => show q.val = 0 + q.val; omega
    | ⟨2, _⟩ => show g.val = 0 + g.val; omega

/-- The shift up at row 27 is the zero row. -/
theorem up_hi (v : FVec Ideal S28x224x32 .f32) (i : Fin 28) (q : Fin 224) (g : Fin 32) (hi : i.val = 27) :
    up v (ix3 i q g) = 0 := by
  unfold up
  refine (concatenate_pair_apply_right (t := S28x224x32) (s₁ := S27x224x32) (s₂ := S1x224x32) (0 : Fin 3) (rows1 v) zeroRow
    concatenates_S27x224x32_S1x224x32_S28x224x32_d0 (ix3 i q g) rfl rfl
    (ix3 (0 : Fin 1) q g) (fun b hb => ?_) ?_).trans (zeroRow_at _)
  · match b with
    | ⟨0, _⟩ => exact absurd rfl hb
    | ⟨1, _⟩ => rfl
    | ⟨2, _⟩ => rfl
  · show 0 + 27 = i.val
    omega

end Cert.KernelIdeal.KerPay

end
-- ==== Proof.KerPay.lean ====
/-
  The fused kernel's arithmetic for one block of eight images, read at an entry of its convolution output.

  The 3×3 window's contraction over 1152 = 3·384 entries splits into three row blocks of 384 entries each. The program
  computes all three blocks of every row in one product with the regrouped weights (block a in columns a·32 .. a·32 + 31),
  and adds block 1 of row i, block 0 of row i − 1 and block 2 of row i + 1, a zero row standing in at the image's border,
  where the padded activation is zero and so is the block. Addition on the extended reals is commutative and associative.
-/
import proofs.«159024_g2000605899403188_pallasbulk_86_30_alg».proof.Proof.Gen.KernelIdeal.Skeleton
import proofs.«159024_g2000605899403188_pallasbulk_86_30_alg».proof.Proof.Spec
import proofs.«159024_g2000605899403188_pallasbulk_86_30_alg».proof.Proof.LibBlockSum
import proofs.«159024_g2000605899403188_pallasbulk_86_30_alg».proof.Proof.KerPayProd
import proofs.«159024_g2000605899403188_pallasbulk_86_30_alg».proof.Proof.KerPayShift

noncomputable section

open scoped BigOperators

namespace Cert.KernelIdeal.KerPay

open Idealize.ShloMosaic Idealize.ShloMosaic.ValueIdx Cert.KernelIdeal Cert.KernelIdeal.Gen Cert.DenseConv

/-- Row block a of the window's contraction, its 384 entries listed by `idx`: the window's entry a·384 + k' is the padded
    activation at row i + a − 1, column j + k'/128 − 1, channel k' mod 128, and its weight is the regrouped weights' entry
    (k', a·32 + g). -/
theorem block_eq (T' : Fin 28 → Fin 28 → Fin 128 → EReal) (x5 : Vec Ideal S384x96 .f32) (g : Fin 32) (w : Fin 1152 → EReal)
    (hw : ∀ (k : Fin 1152) (p : Fin 384) (n : Fin 96), p.val = k.val % 384 → n.val = k.val / 384 * 32 + g.val → w k = x5 (ix2 p n))
    (i j : Fin 28) (a : ℕ) (n : Fin 96) (hn : n.val = a * 32 + g.val) (idx : Fin 384 → Fin 1152)
    (hidx : ∀ k' : Fin 384, (idx k').val = a * 384 + k'.val) :
    ∑ k' : Fin 384, col T' i j (idx k') * w (idx k') = rowSum T' x5 (i.val + a) j n := by
  unfold rowSum
  refine Finset.sum_congr rfl fun k' _ => ?_
  have hk := k'.isLt
  have hi := hidx k'
  rw [hw (idx k') k' n (by omega) (by omega)]
  congr 1
  unfold col
  have e1 : (idx k').val / 384 = a := by omega
  have e2 : (idx k').val % 384 / 128 = k'.val / 128 := by omega
  have e3 : (⟨(idx k').val % 128, Nat.mod_lt _ (by norm_num)⟩ : Fin 128) = ⟨k'.val % 128, Nat.mod_lt _ (by norm_num)⟩ :=
    Fin.ext (by show (idx k').val % 128 = k'.val % 128; omega)
  rw [e1, e2, e3]

/-- The window's contraction is its three row blocks. -/
theorem conv_split (T' : Fin 28 → Fin 28 → Fin 128 → EReal) (x5 : Vec Ideal S384x96 .f32) (g : Fin 32) (w : Fin 1152 → EReal)
    (hw : ∀ (k : Fin 1152) (p : Fin 384) (n : Fin 96), p.val = k.val % 384 → n.val = k.val / 384 * 32 + g.val → w k = x5 (ix2 p n))
    (i j : Fin 28) :
    convOf T' w i j
      = rowSum T' x5 (i.val + 0) j (⟨g.val, by have := g.isLt; omega⟩ : Fin 96)
        + rowSum T' x5 (i.val + 1) j (⟨32 + g.val, by have := g.isLt; omega⟩ : Fin 96)
        + rowSum T' x5 (i.val + 2) j (⟨64 + g.val, by have := g.isLt; omega⟩ : Fin 96) := by
  unfold convOf
  have h1 : ∑ k : Fin 1152, col T' i j k * w k
      = ∑ k : Fin 768, col T' i j ⟨k.val, by have := k.isLt; omega⟩ * w ⟨k.val, by have := k.isLt; omega⟩
        + ∑ k' : Fin 384, col T' i j ⟨768 + k'.val, by have := k'.isLt; omega⟩ * w ⟨768 + k'.val, by have := k'.isLt; omega⟩ :=
    LibBlockSum.sum_split 768 384 (fun k : Fin (768 + 384) => col T' i j k * w k)
  have h2 : ∑ k : Fin 768, col T' i j ⟨k.val, by have := k.isLt; omega⟩ * w ⟨k.val, by have := k.isLt; omega⟩
      = ∑ k' : Fin 384, col T' i j ⟨k'.val, by have := k'.isLt; omega⟩ * w ⟨k'.val, by have := k'.isLt; omega⟩
        + ∑ k' : Fin 384, col T' i j ⟨384 + k'.val, by have := k'.isLt; omega⟩ * w ⟨384 + k'.val, by have := k'.isLt; omega⟩ :=
    LibBlockSum.sum_split 384 384
      (fun k : Fin (384 + 384) => col T' i j ⟨k.val, by have := k.isLt; omega⟩ * w ⟨k.val, by have := k.isLt; omega⟩)
  rw [h1, h2]
  refine congrArg₂ (· + ·) (congrArg₂ (· + ·) ?_ ?_) ?_
  · exact block_eq T' x5 g w hw i j 0 _ (by show g.val = 0 * 32 + g.val; omega)
      (fun k' => ⟨k'.val, by have := k'.isLt; omega⟩) (fun k' => by show k'.val = 0 * 384 + k'.val; omega)
  · exact block_eq T' x5 g w hw i j 1 _ (by show 32 + g.val = 1 * 32 + g.val; omega)
      (fun k' => ⟨384 + k'.val, by have := k'.isLt; omega⟩) (fun k' => by show 384 + k'.val = 1 * 384 + k'.val; omega)
  · exact block_eq T' x5 g w hw i j 2 _ (by show 64 + g.val = 2 * 32 + g.val; omega)
      (fun k' => ⟨768 + k'.val, by have := k'.isLt; omega⟩) (fun k' => by show 768 + k'.val = 2 * 384 + k'.val; omega)

/-- The stored value over a product whose entry (i'·224 + j·8 + bi, n) is row block i' + 1 of the padded activation against the
    weights' column n: the window's contraction at (i, j). -/
theorem pay1_conv (T' : Fin 28 → Fin 28 → Fin 128 → EReal) (x5 : Vec Ideal S384x96 .f32) (P : FVec Ideal S6272x96 .f32)
    (j : Fin 28) (bi : Fin 8)
    (hP : ∀ (i' : Fin 28) (n : Fin 96) (r : Fin 6272), r.val = i'.val * 224 + (j.val * 8 + bi.val) →
      P (ix2 r n) = rowSum T' x5 (i'.val + 1) j n)
    (i : Fin 28) (hw : Fin 784) (hhw : hw.val = i.val * 28 + j.val) (g : Fin 32) (w : Fin 1152 → EReal)
    (hw' : ∀ (k : Fin 1152) (p : Fin 384) (n : Fin 96), p.val = k.val % 384 → n.val = k.val / 384 * 32 + g.val → w k = x5 (ix2 p n)) :
    k0_pay1 P (ix3 hw bi g) = convOf T' w i j := by
  have hi := i.isLt
  have hj := j.isLt
  have hb := bi.isLt
  have hg := g.isLt
  obtain ⟨q, hq⟩ : ∃ q : Fin 224, q.val = j.val * 8 + bi.val := ⟨⟨j.val * 8 + bi.val, by omega⟩, rfl⟩
  have hS : ∀ (i' : Fin 28) (n : Fin 96), stackP P (ix3 i' q n) = rowSum T' x5 (i'.val + 1) j n := fun i' n =>
    (stackP_at P i' q n ⟨i'.val * 224 + q.val, by have := i'.isLt; have := q.isLt; omega⟩ rfl).trans
      (hP i' n _ (by show i'.val * 224 + q.val = i'.val * 224 + (j.val * 8 + bi.val); omega))
  have hD : down (grp0 P) (ix3 i q g) = rowSum T' x5 (i.val + 0) j (⟨g.val, by omega⟩ : Fin 96) := by
    by_cases h0 : i.val = 0
    · rw [down_lo _ i q g h0, rowSum_out T' x5 _ j _ (by omega)]
    · rw [down_hi _ i ⟨i.val - 1, by omega⟩ q g (by show i.val - 1 + 1 = i.val; omega),
        grp0_at P _ q g (⟨g.val, by omega⟩ : Fin 96) rfl, hS]
      exact rowSum_congr T' x5 _ _ j _ _ (by show i.val - 1 + 1 = i.val + 0; omega) rfl
  have hU : up (grp2 P) (ix3 i q g) = rowSum T' x5 (i.val + 2) j (⟨64 + g.val, by omega⟩ : Fin 96) := by
    by_cases h27 : i.val = 27
    · rw [up_hi _ i q g h27, rowSum_out T' x5 _ j _ (by omega)]
    · rw [up_lo _ i ⟨i.val + 1, by omega⟩ q g rfl, grp2_at P _ q g (⟨64 + g.val, by omega⟩ : Fin 96) rfl, hS]
  rw [pay1_eq]
  refine (shapeCast_apply _ shapeCasts_S28x224x32_S784x8x32 (ix3 hw bi g) (ix3 i q g) ?_).trans ?_
  · rw [Shape.rowMajor_val_three, Shape.rowMajor_val_three]
    show (i.val * 224 + q.val) * 32 + g.val = (hw.val * 8 + bi.val) * 32 + g.val
    omega
  rw [addf_apply, addf_apply, grp1_at P i q g (⟨32 + g.val, by omega⟩ : Fin 96) rfl, hS, hD, hU,
    conv_split T' x5 g w hw' i j,
    add_comm (rowSum T' x5 (i.val + 1) j _) (rowSum T' x5 (i.val + 0) j _)]

/-- The stored convolution of a block: at position `hw = i·28 + j`, image `bi` of the block, output channel `g`. The block
    `x0` holds position `hw` of image `bi` at `(hw, bi, ·)`; the regrouped weights `x5` hold weight `k` of output channel
    `g` at row `k mod 384`, column `(k / 384)·32 + g`. -/
theorem pay_conv (x0 : Vec Ideal S784x8x256 .f32) (x1 x2 : Vec Ideal S1x256 .f32) (x3 : Vec Ideal S256x128 .f32)
    (x4 : Vec Ideal S1x128 .f32) (x5 : Vec Ideal S384x96 .f32) (i j : Fin 28) (hw : Fin 784) (hhw : hw.val = i.val * 28 + j.val)
    (bi : Fin 8) (g : Fin 32) :
    k0_pay1 (k0_pay3 x0 x1 x2 x3 x4 x5) (ix3 hw bi g)
      = convOf (actOf (fun i' j' k => x0 (ix3 (⟨i'.val * 28 + j'.val, by have := i'.isLt; have := j'.isLt; omega⟩ : Fin 784) bi k)) x1 x2 x3 x4)
          (fun k => x5 (ix2 (⟨k.val % 384, Nat.mod_lt _ (by norm_num)⟩ : Fin 384)
            (⟨k.val / 384 * 32 + g.val, by have := k.isLt; have := g.isLt; omega⟩ : Fin 96))) i j :=
  pay1_conv _ x5 (k0_pay3 x0 x1 x2 x3 x4 x5) j bi (fun i' n r hr => prod_at x0 x1 x2 x3 x4 x5 i' j bi n r hr) i hw hhw g _
    (fun k p n hp hn => by
      have e1 : p = (⟨k.val % 384, Nat.mod_lt _ (by norm_num)⟩ : Fin 384) := Fin.ext hp
      have e2 : n = (⟨k.val / 384 * 32 + g.val, by have := k.isLt; have := g.isLt; omega⟩ : Fin 96) := Fin.ext hn
      rw [e1, e2])

end Cert.KernelIdeal.KerPay

end
-- ==== Proof.SpecAt.lean ====
/-
  The layer's result read at an entry given by its four coordinates: a channel below 256 is the input's, a channel
  from 256 on the convolution's.
-/
import proofs.«159024_g2000605899403188_pallasbulk_86_30_alg».proof.Proof.Spec

noncomputable section

namespace Cert.DenseConv

open Idealize.ShloMosaic Idealize.ShloMosaic.ValueIdx

variable (x : (⟨4, ![48, 256, 28, 28]⟩ : Shape).Idx → EReal) (s1 b1 : (⟨2, ![1, 256]⟩ : Shape).Idx → EReal)
    (w1 : (⟨2, ![256, 128]⟩ : Shape).Idx → EReal) (b2 : (⟨2, ![1, 128]⟩ : Shape).Idx → EReal)
    (w2 : (⟨2, ![1152, 32]⟩ : Shape).Idx → EReal)

theorem out_lo (n : Fin 48) (ch : Fin 288) (i j : Fin 28) (h : ch.val < 256) :
    out x s1 b1 w1 b2 w2 (ix4 n ch i j) = x (ix4 n (⟨ch.val, h⟩ : Fin 256) i j) := by
  unfold out
  exact dif_pos h

theorem out_hi (n : Fin 48) (ch : Fin 288) (i j : Fin 28) (h : 256 ≤ ch.val) :
    out x s1 b1 w1 b2 w2 (ix4 n ch i j)
      = convOf (actOf (fun i j k => x (ix4 n k i j)) s1 b1 w1 b2)
          (fun k => w2 (ix2 k (⟨ch.val - 256, by have := ch.isLt; omega⟩ : Fin 32))) i j := by
  unfold out
  exact dif_neg (Nat.not_lt.2 h)

end Cert.DenseConv

end
-- ==== Proof.KerRunBlock.lean ====
import proofs.«159024_g2000605899403188_pallasbulk_86_30_alg».proof.Proof.Gen.KernelIdeal.Frame
import proofs.«159024_g2000605899403188_pallasbulk_86_30_alg».proof.Proof.Spec
import Idealize.ShloMosaic.Lib.Pipeline.Value
import Idealize.ShloMosaic.Lib.ValueIdx
import Idealize.ShloMosaic.Lib.StableHlo.Run
import proofs.«159024_g2000605899403188_pallasbulk_86_30_alg».proof.Proof.KerRunHost
import proofs.«159024_g2000605899403188_pallasbulk_86_30_alg».proof.Proof.KerRunPieces
import proofs.«159024_g2000605899403188_pallasbulk_86_30_alg».proof.Proof.KerPay
import proofs.«159024_g2000605899403188_pallasbulk_86_30_alg».proof.Proof.SpecAt
set_option maxRecDepth 16384

noncomputable section

namespace Cert.KernelIdeal.KerRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Cert.DenseConv

/-- The region's output array [784, 48, 288] as one function of the arguments: entry (hw, n, ch) is the layer's result
    for image n, channel ch, at row hw / 28, column hw mod 28. -/
def G (x : S48x256x28x28.Idx → EReal) (s1 b1 : S1x256.Idx → EReal) (w1 : S256x128.Idx → EReal) (b2 : S1x128.Idx → EReal)
    (w2 : S1152x32.Idx → EReal) : S784x48x288.Idx → EReal := fun y =>
  out x s1 b1 w1 b2 w2 (ix4 (y 1) (y 2) (⟨(y 0).val / 28, by have h : (y 0).val < 784 := (y 0).isLt; omega⟩ : Fin 28)
    (⟨(y 0).val % 28, Nat.mod_lt _ (by norm_num)⟩ : Fin 28))

/-- The printed index maps over the six grid points: the input and output windows move along the image axis, block t
    holding images 8t … 8t + 7; the other windows stay on their whole arrays. -/
theorem idx_facts : ∀ t : Fin cfg0.N,
    win0_0.index t (0 : Fin 3) = 0 ∧ win0_0.index t (1 : Fin 3) = t.val ∧ win0_0.index t (2 : Fin 3) = 0
    ∧ win0_6.index t (0 : Fin 3) = 0 ∧ win0_6.index t (1 : Fin 3) = t.val ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The input window's block at point t holds images 8t … 8t + 7 of the transposed input. -/
theorem iblk0_apply (c : Dev nD) (t : Fin cfg0.N) (hw : Fin 784) (bi : Fin 8) (k : Fin 256) (n : Fin 48)
    (hn : n.val = t.val * 8 + bi.val) (i j : Fin 28) (h : hw.val = i.val * 28 + j.val) :
    iblk m c 0 t (ix3 hw bi k) = (m ((c : Thread nD τ).loc main_arg0) : S48x256x28x28.Idx → EReal) (ix4 n k i j) := by
  obtain ⟨e0, e1, e2, -⟩ := idx_facts t
  refine Eq.trans ?_ (V_v4_apply m c hw n k i j h)
  show (V m c main_v4 : S784x48x256.Idx → EReal) (((cfg0.win 0).blk t).view.emb (ix3 hw bi k)) = _
  refine congrArg _ (funext fun a => Fin.ext ?_)
  match a with
  | ⟨0, _⟩ => show win0_0.index t (0 : Fin 3) * 784 + 1 * hw.val = hw.val; omega
  | ⟨1, _⟩ => show win0_0.index t (1 : Fin 3) * 8 + 1 * bi.val = n.val; omega
  | ⟨2, _⟩ => show win0_0.index t (2 : Fin 3) * 256 + 1 * k.val = k.val; omega

/-- The other input windows' blocks are their whole arrays at every point. -/
theorem iblk1_eq (c : Dev nD) (t : Fin cfg0.N) :
    (iblk m c 1 t : S1x256.Idx → EReal) = (m ((c : Thread nD τ).loc main_arg1) : S1x256.Idx → EReal) := by
  obtain ⟨-, -, -, -, -, -, e0, e1, -⟩ := idx_facts t
  funext y
  refine Eq.trans ?_ (congrFun (V_main_arg1 m c) y)
  show (V m c main_arg1 : S1x256.Idx → EReal) (((cfg0.win 1).blk t).view.emb y) = _
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 256 + 1 * (y 1).val = (y 1).val; omega
theorem iblk2_eq (c : Dev nD) (t : Fin cfg0.N) :
    (iblk m c 2 t : S1x256.Idx → EReal) = (m ((c : Thread nD τ).loc main_arg2) : S1x256.Idx → EReal) := by
  obtain ⟨-, -, -, -, -, -, -, -, e0, e1, -⟩ := idx_facts t
  funext y
  refine Eq.trans ?_ (congrFun (V_main_arg2 m c) y)
  show (V m c main_arg2 : S1x256.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega
theorem iblk3_eq (c : Dev nD) (t : Fin cfg0.N) :
    (iblk m c 3 t : S256x128.Idx → EReal) = (m ((c : Thread nD τ).loc main_arg3) : S256x128.Idx → EReal) := by
  obtain ⟨-, -, -, -, -, -, -, -, -, -, e0, e1, -⟩ := idx_facts t
  funext y
  refine Eq.trans ?_ (congrFun (V_main_arg3 m c) y)
  show (V m c main_arg3 : S256x128.Idx → EReal) (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega
theorem iblk4_eq (c : Dev nD) (t : Fin cfg0.N) :
    (iblk m c 4 t : S1x128.Idx → EReal) = (m ((c : Thread nD τ).loc main_arg4) : S1x128.Idx → EReal) := by
  obtain ⟨-, -, -, -, -, -, -, -, -, -, -, -, e0, e1, -⟩ := idx_facts t
  funext y
  refine Eq.trans ?_ (congrFun (V_main_arg4 m c) y)
  show (V m c main_arg4 : S1x128.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega
/-- The regrouped weights' block is the whole regrouped array: read at (k mod 384, (k / 384)·32 + g) it is weight k of
    output channel g. -/
theorem iblk5_apply (c : Dev nD) (t : Fin cfg0.N) (k : Fin 1152) (g : Fin 32) (r : Fin 384) (q : Fin 96)
    (hr : r.val = k.val % 384) (hq : q.val = k.val / 384 * 32 + g.val) :
    iblk m c 5 t (ix2 r q) = (m ((c : Thread nD τ).loc main_arg5) : S1152x32.Idx → EReal) (ix2 k g) := by
  obtain ⟨-, -, -, -, -, -, -, -, -, -, -, -, -, -, e0, e1⟩ := idx_facts t
  refine Eq.trans ?_ (V_v2_apply m c k g r q hr hq)
  show (V m c main_v2 : S384x96.Idx → EReal) (((cfg0.win 5).blk t).view.emb (ix2 r q)) = _
  refine congrArg _ (funext fun a => Fin.ext ?_)
  match a with
  | ⟨0, _⟩ => show win0_5.index t (0 : Fin 2) * 384 + 1 * r.val = r.val; omega
  | ⟨1, _⟩ => show win0_5.index t (1 : Fin 2) * 96 + 1 * q.val = q.val; omega

end Cert.KernelIdeal.KerRun

end
-- ==== Proof.KerRunFinal.lean ====
import proofs.«159024_g2000605899403188_pallasbulk_86_30_alg».proof.Proof.Gen.KernelIdeal.Frame
import proofs.«159024_g2000605899403188_pallasbulk_86_30_alg».proof.Proof.Spec
import Idealize.ShloMosaic.Lib.Pipeline.Value
import Idealize.ShloMosaic.Lib.ValueIdx
import Idealize.ShloMosaic.Lib.StableHlo.Run
import proofs.«159024_g2000605899403188_pallasbulk_86_30_alg».proof.Proof.KerRunBlock
set_option maxRecDepth 16384

noncomputable section

namespace Cert.KernelIdeal.KerRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Cert.DenseConv

/-- What point t writes back is block t of the one whole-array function G of the arguments. -/
theorem flushed_eq (c : Dev nD) (t : Fin cfg0.N) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  unfold outsAt0
  rw [out_pieces]
  funext yb
  obtain ⟨hw, bi, ch, rfl⟩ : ∃ (hw : Fin 784) (bi : Fin 8) (ch : Fin 288), yb = ix3 hw bi ch := ⟨yb 0, yb 1, yb 2, eq_ix3 yb⟩
  obtain ⟨-, -, -, e0, e1, e2, -⟩ := idx_facts t
  have ht : t.val < 6 := Nat.lt_of_lt_of_eq t.isLt N_0
  have hhwlt : hw.val < 784 := hw.isLt
  have hbi : bi.val < 8 := bi.isLt
  obtain ⟨n, hn⟩ : ∃ n : Fin 48, n.val = t.val * 8 + bi.val := ⟨⟨t.val * 8 + bi.val, by omega⟩, rfl⟩
  obtain ⟨i, hi⟩ : ∃ i : Fin 28, i.val = hw.val / 28 := ⟨⟨hw.val / 28, by omega⟩, rfl⟩
  obtain ⟨j, hj⟩ : ∃ j : Fin 28, j.val = hw.val % 28 := ⟨⟨hw.val % 28, by omega⟩, rfl⟩
  have hhw : hw.val = i.val * 28 + j.val := by omega
  have hemb : ((cfg0.win 6).blk t).view.emb (ix3 hw bi ch) = (ix3 hw n ch : S784x48x288.Idx) := funext fun a => Fin.ext (by
    match a with
    | ⟨0, _⟩ => show win0_6.index t (0 : Fin 3) * 784 + 1 * hw.val = hw.val; omega
    | ⟨1, _⟩ => show win0_6.index t (1 : Fin 3) * 8 + 1 * bi.val = n.val; omega
    | ⟨2, _⟩ => show win0_6.index t (2 : Fin 3) * 288 + 1 * ch.val = ch.val; omega)
  show (View.canon _ : Vec Ideal S784x8x288 .f32) (ix3 hw bi ch) = G _ _ _ _ _ _ (((cfg0.win 6).blk t).view.emb (ix3 hw bi ch))
  rw [hemb]
  have hG : G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 hw n ch) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix4 n ch i j) := by
    unfold G
    refine congrArg _ (funext fun a => Fin.ext ?_)
    match a with
    | ⟨0, _⟩ => rfl
    | ⟨1, _⟩ => rfl
    | ⟨2, _⟩ => exact hi.symm
    | ⟨3, _⟩ => exact hj.symm
  rw [hG]
  by_cases h : ch.val < 256
  · refine (canon_lo (iblk m c 0 t) _ hw bi ch h).trans ?_
    rw [out_lo _ _ _ _ _ _ n ch i j h]
    exact iblk0_apply m c t hw bi ⟨ch.val, h⟩ n hn i j hhw
  · have h' : 256 ≤ ch.val := Nat.le_of_not_lt h
    refine (canon_hi _ _ hw bi ch h').trans ?_
    rw [out_hi _ _ _ _ _ _ n ch i j h']
    refine (Cert.KernelIdeal.KerPay.pay_conv (iblk m c 0 t) (iblk m c 1 t) (iblk m c 2 t) (iblk m c 3 t) (iblk m c 4 t) (iblk m c 5 t)
      i j hw hhw bi ⟨ch.val - 256, by have := ch.isLt; omega⟩).trans ?_
    have e0' : (fun (i' j' : Fin 28) (k : Fin 256) => iblk m c 0 t (ix3 (⟨i'.val * 28 + j'.val, by have := i'.isLt; have := j'.isLt; omega⟩ : Fin 784) bi k))
        = fun i' j' k => (m ((c : Thread nD τ).loc main_arg0) : S48x256x28x28.Idx → EReal) (ix4 n k i' j') :=
      funext fun i' => funext fun j' => funext fun k => iblk0_apply m c t _ bi k n hn i' j' rfl
    have e5' : (fun k : Fin 1152 => iblk m c 5 t (ix2 (⟨k.val % 384, Nat.mod_lt _ (by norm_num)⟩ : Fin 384)
          (⟨k.val / 384 * 32 + (ch.val - 256), by have := k.isLt; have := ch.isLt; omega⟩ : Fin 96)))
        = fun k => (m ((c : Thread nD τ).loc main_arg5) : S1152x32.Idx → EReal) (ix2 k (⟨ch.val - 256, by have := ch.isLt; omega⟩ : Fin 32)) :=
      funext fun k => iblk5_apply m c t k _ _ _ rfl rfl
    rw [e0', e5', iblk1_eq, iblk2_eq, iblk3_eq, iblk4_eq]

/-- An entry of the output array lies in point t's block iff each coordinate lies in the block's range. -/
theorem mem_blk (t : Fin cfg0.N) (y : S784x48x288.Idx) :
    y ∈ ((cfg0.win 6).blk t).view.set ↔ ∀ a : Fin 3, win0_6.index t a * S784x8x288.size a ≤ (y a).val ∧ (y a).val < win0_6.index t a * S784x8x288.size a + S784x8x288.size a := by
  show y ∈ ((View.whole main_v5).slice (win0_6.rect t)).set ↔ _
  rw [View.set_slice_whole, Rect.mem_set_unit]
  exact Iff.rfl

/-- Every group of eight images is some point's. -/
theorem idx_onto : ∀ q : Fin 6, ∃ t : Fin cfg0.N, win0_6.index t = ![0, q.val, 0] :=
  (by decide +kernel : ∀ q : Fin 6, ∃ t : Fin grid0.N, win0_6.index t = ![0, q.val, 0])

/-- Image n is written back by point n / 8: the blocks cover the array. -/
theorem cover (y : S784x48x288.Idx) : ∃ t : Fin cfg0.N, (cfg0.win 6).flush t = true ∧ y ∈ ((cfg0.win 6).blk t).view.set := by
  have h0 : (y 0).val < 784 := (y 0).isLt
  have h1 : (y 1).val < 48 := (y 1).isLt
  have h2 : (y 2).val < 288 := (y 2).isLt
  obtain ⟨t, ht⟩ := idx_onto ⟨(y 1).val / 8, by omega⟩
  have q0 : win0_6.index t (0 : Fin 3) = 0 := congrFun ht 0
  have q1 : win0_6.index t (1 : Fin 3) = (y 1).val / 8 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 784 ≤ (y 0).val ∧ (y 0).val < win0_6.index t (0 : Fin 3) * 784 + 784; omega
  | ⟨1, _⟩ => show win0_6.index t (1 : Fin 3) * 8 ≤ (y 1).val ∧ (y 1).val < win0_6.index t (1 : Fin 3) * 8 + 8; omega
  | ⟨2, _⟩ => show win0_6.index t (2 : Fin 3) * 288 ≤ (y 2).val ∧ (y 2).val < win0_6.index t (2 : Fin 3) * 288 + 288; omega

/-- The output array after the run is G of the arguments. -/
theorem final (c : Dev nD) : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) cover

end Cert.KernelIdeal.KerRun

end
-- ==== Proof.KerRun.lean ====
import proofs.«159024_g2000605899403188_pallasbulk_86_30_alg».proof.Proof.Gen.KernelIdeal.Frame
import proofs.«159024_g2000605899403188_pallasbulk_86_30_alg».proof.Proof.Spec
import Idealize.ShloMosaic.Lib.Pipeline.Value
import Idealize.ShloMosaic.Lib.ValueIdx
import Idealize.ShloMosaic.Lib.StableHlo.Run
import proofs.«159024_g2000605899403188_pallasbulk_86_30_alg».proof.Proof.KerRunFinal
set_option maxRecDepth 16384

noncomputable section

namespace Cert.KernelIdeal.KerRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Cert.DenseConv

/-- The program's result — the region's output array [784, 48, 288] with its position axis split into rows and
    columns and the axes reordered to image, channel, row, column — is the layer's result. -/
theorem tail_eq (c : Dev nD) :
    (Pipeline.afterTail₀ cfgs (dats m) 0 (V0 m) [hostOps1] c main_v7 : S48x288x28x28.Idx → EReal)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : (Pipeline.afterTail₀ cfgs (dats m) 0 (V0 m) [hostOps1] c main_v7 : S48x288x28x28.Idx → EReal)
      = transpose S48x288x28x28 [2, 3, 0, 1]
          (shapeCast S28x28x48x288 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) shapeCasts_S784x48x288_S28x28x48x288)
          transposes_S28x28x48x288_S48x288x28x28_2_3_0_1 := by
    unfold Pipeline.afterTail₀
    show StableHlo.after hostOps1 _ (Proc.devRef .tc main_v7) = _
    after_results
    have hwa : Pipeline.withArrays (cfgs 0).spec c (V0 m c) (fun w => (dats m 0 c).arrAt w (cfgs 0).N) (Proc.devRef .tc main_v5)
        = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
      (Pipeline.withArrays_arr spec0 launch0.win.arr_inj c _ _ 6).trans (final m c)
    rw [hwa]
    rfl
  rw [e]
  funext y
  obtain ⟨n, ch, i, j, rfl⟩ : ∃ (n : Fin 48) (ch : Fin 288) (i j : Fin 28), y = ix4 n ch i j := ⟨y 0, y 1, y 2, y 3, eq_ix4 y⟩
  have hi : i.val < 28 := i.isLt
  have hj : j.val < 28 := j.isLt
  obtain ⟨hw, hhw⟩ : ∃ hw : Fin 784, hw.val = i.val * 28 + j.val := ⟨⟨i.val * 28 + j.val, by omega⟩, rfl⟩
  rw [transpose_apply _ _ _ (ix4 n ch i j) (ix4 i j n ch) (by intro b; fin_cases b <;> rfl),
    shapeCast_apply _ _ (ix4 i j n ch) (ix3 hw n ch) (by
      rw [Shape.rowMajor_val_four, Shape.rowMajor_val_three]
      show (hw.val * 48 + n.val) * 288 + ch.val = ((i.val * 28 + j.val) * 48 + n.val) * 288 + ch.val
      rw [hhw])]
  unfold G
  refine congrArg _ (funext fun a => Fin.ext ?_)
  match a with
  | ⟨0, _⟩ => rfl
  | ⟨1, _⟩ => rfl
  | ⟨2, _⟩ => show hw.val / 28 = i.val; omega
  | ⟨3, _⟩ => show hw.val % 28 = j.val; omega

/-- The idealized kernel's run: every weakly fair execution ends with the result buffer holding the layer's result of
    the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v7) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.KerRun

end
-- ==== Proof.RefRunHost.lean ====
/-
  The arrays the reference's kernel launch finds, as functions of the program's arguments: the input with its channels
  moved last and its two spatial axes merged, and the two column masks.
-/
import proofs.«159024_g2000605899403188_pallasbulk_86_30_alg».proof.Proof.Gen.ReferenceIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.Tactic

noncomputable section

namespace Cert.ReferenceIdeal.RefHost

open Cert.ReferenceIdeal Cert.ReferenceIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The input with its channel axis moved last: entry (n, i, j, k) is x(n, k, i, j). -/
def xLast (x : S48x256x28x28.Idx → EReal) : S48x28x28x256.Idx → EReal :=
  transpose S48x28x28x256 [0, 2, 3, 1] x transposes_S48x256x28x28_S48x28x28x256_0_2_3_1

/-- The same with rows and columns merged into one axis of 784 positions. -/
def xFlat (x : S48x256x28x28.Idx → EReal) : S48x784x256.Idx → EReal :=
  shapeCast S48x784x256 (xLast x) shapeCasts_S48x28x28x256_S48x784x256

/-- The column number of each of the 784 positions, as a [784, 1] array of words. -/
def colNo : S784x1.Idx → BitVec 32 :=
  broadcastInDim S784x1 ![0] bcast_S784_S784x1_0
    (shapeCast S784 (broadcastInDim S28x28 ![0, 1] bcast_S1x28_S28x28_0_1
      (shapeCast S1x28 (iotaInDim S28 32 0) shapeCasts_S28_S1x28)) shapeCasts_S28x28_S784)

/-- The [784, 128] array of ones. -/
def ones : S784x128.Idx → EReal :=
  broadcastInDim S784x128 ![] bcast_S_S784x128 (constant (F := Ideal) S_ .f32 0x3F800000#32)

/-- A mask: one where the condition holds, the zero pattern elsewhere. -/
def maskOf (cond : S784x1.Idx → BitVec 1) : S784x128.Idx → EReal :=
  select (broadcastInDim S784x128 ![0, 1] bcast_S784x1_S784x128_0_1 cond) ones
    (broadcastInDim S784x128 ![] bcast_S_S784x128 (id (constant (F := Ideal) S_ .f32 0x00000000#32)))

/-- The two column masks stacked: the first is one where the column has a left neighbour, the second where it has a
    right neighbour. -/
def masks : S2x784x128.Idx → EReal :=
  concatenate S2x784x128 0
    [⟨S1x784x128, broadcastInDim S1x784x128 ![1, 2] bcast_S784x128_S1x784x128_1_2
        (maskOf (cmpi .sge colNo (broadcastInDim S784x1 ![] bcast_S_S784x1 (constantI S_ 32 1#32))))⟩,
     ⟨S1x784x128, broadcastInDim S1x784x128 ![1, 2] bcast_S784x128_S1x784x128_1_2
        (maskOf (cmpi .sle colNo (broadcastInDim S784x1 ![] bcast_S_S784x1 (constantI S_ 32 26#32))))⟩]
    concatenates_S1x784x128_S1x784x128_S2x784x128_d0

theorem V_v0 (c : Dev nD) : (V m c main_v0 : S48x28x28x256.Idx → EReal) = xLast (m ((c.tc : Thread nD τ).loc main_arg0)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem V_v1 (c : Dev nD) : (V m c main_v1 : S48x784x256.Idx → EReal) = xFlat (m ((c.tc : Thread nD τ).loc main_arg0)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 1000000 in
theorem V_v16 (c : Dev nD) : (V m c main_v16 : S2x784x128.Idx → EReal) = masks := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

end Cert.ReferenceIdeal.RefHost

end
-- ==== Proof.RefRunHostAt.lean ====
/-
  The arrays the reference's kernel launch finds, read at an index: the re-laid input is the input at the matching
  channel, row and column; the two masks are one exactly where the position's column has a left (right) neighbour.
-/
import proofs.«159024_g2000605899403188_pallasbulk_86_30_alg».proof.Proof.RefRunHost

noncomputable section

namespace Cert.ReferenceIdeal.RefHost

open Cert.ReferenceIdeal Cert.ReferenceIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Channels last: entry (n, i, j, k) is x(n, k, i, j). -/
theorem xLast_apply (x : S48x256x28x28.Idx → EReal) (n : Fin 48) (i j : Fin 28) (k : Fin 256) :
    xLast x (ix4 n i j k) = x (ix4 n k i j) := by
  unfold xLast
  refine transpose_apply _ x _ (ix4 n i j k) (ix4 n k i j) fun b => ?_
  match b with
  | ⟨0, _⟩ => rfl
  | ⟨1, _⟩ => rfl
  | ⟨2, _⟩ => rfl
  | ⟨3, _⟩ => rfl

/-- Rows and columns merged: position hw = i·28 + j of image n, channel k, is x(n, k, i, j). -/
theorem xFlat_apply (x : S48x256x28x28.Idx → EReal) (n : Fin 48) (hw : Fin 784) (k : Fin 256) (i j : Fin 28)
    (hhw : hw.val = i.val * 28 + j.val) : xFlat x (ix3 n hw k) = x (ix4 n k i j) := by
  unfold xFlat
  refine (shapeCast_apply (xLast x) _ (ix3 n hw k) (ix4 n i j k) ?_).trans (xLast_apply x n i j k)
  rw [Shape.rowMajor_val_four, Shape.rowMajor_val_three]
  show ((n.val * 28 + i.val) * 28 + j.val) * 256 + k.val = (n.val * 784 + hw.val) * 256 + k.val
  omega

/-- The column number of position r is r mod 28. -/
theorem colNo_apply (r : Fin 784) (z : Fin 1) : colNo (ix2 r z) = BitVec.ofNat 32 (r.val % 28) := by
  unfold colNo
  have h28 : r.val % 28 < 28 := Nat.mod_lt _ (by norm_num)
  have hd : r.val / 28 < 28 := by have := r.isLt; omega
  refine (broadcastInDim_apply _ _ _ (ix2 r z) (ix1 r) fun a => ?_).trans ?_
  · match a with
    | ⟨0, _⟩ => rfl
  refine (shapeCast_apply _ _ (ix1 r) (ix2 (⟨r.val / 28, hd⟩ : Fin 28) (⟨r.val % 28, h28⟩ : Fin 28)) ?_).trans ?_
  · rw [Shape.rowMajor_val_two, Shape.rowMajor_val_one]
    show r.val / 28 * 28 + r.val % 28 = r.val
    omega
  refine (broadcastInDim_apply _ _ _ (ix2 (⟨r.val / 28, hd⟩ : Fin 28) (⟨r.val % 28, h28⟩ : Fin 28))
    (ix2 (0 : Fin 1) (⟨r.val % 28, h28⟩ : Fin 28)) fun a => ?_).trans ?_
  · match a with
    | ⟨0, _⟩ => rfl
    | ⟨1, _⟩ => rfl
  refine (shapeCast_apply _ _ (ix2 (0 : Fin 1) (⟨r.val % 28, h28⟩ : Fin 28)) (ix1 (⟨r.val % 28, h28⟩ : Fin 28)) ?_).trans ?_
  · rw [Shape.rowMajor_val_two, Shape.rowMajor_val_one]
    show r.val % 28 = 0 * 28 + r.val % 28
    omega
  rfl

/-- Comparing a column number below 28, as a 32-bit word, with 1 and with 26. -/
theorem sge_one : ∀ k : Fin 28, IntOp.cmpi .sge (BitVec.ofNat 32 k.val) 1#32 = if 1 ≤ k.val then 1#1 else 0#1 := by
  decide
theorem sle_26 : ∀ k : Fin 28, IntOp.cmpi .sle (BitVec.ofNat 32 k.val) 26#32 = if k.val ≤ 26 then 1#1 else 0#1 := by
  decide

theorem ones_apply (j : S784x128.Idx) : ones j = Ideal.ofBits .f32 0x3F800000#32 := by
  unfold ones
  exact broadcastInDim_scalar_apply _ _ j

/-- A mask at position r, channel c: decided by the condition at row r. -/
theorem maskOf_apply (cond : S784x1.Idx → BitVec 1) (r : Fin 784) (c : Fin 128) :
    maskOf cond (ix2 r c) = Scalar.select (cond (ix2 r (0 : Fin 1))) (Ideal.ofBits .f32 0x3F800000#32) (Ideal.ofBits .f32 0x00000000#32) := by
  unfold maskOf
  rw [select_apply, ones_apply]
  congr 1
  · refine broadcastInDim_apply _ _ cond (ix2 r c) (ix2 r (0 : Fin 1)) fun a => ?_
    match a with
    | ⟨0, _⟩ => rfl
    | ⟨1, _⟩ => rfl

/-- The first mask: one where the column has a left neighbour. -/
theorem masks_left (r : Fin 784) (c : Fin 128) :
    masks (ix3 (0 : Fin 2) r c)
      = if 1 ≤ r.val % 28 then Ideal.ofBits .f32 0x3F800000#32 else Ideal.ofBits .f32 0x00000000#32 := by
  unfold masks
  refine (concatenate_pair_apply_left (t := S2x784x128) (s₁ := S1x784x128) (s₂ := S1x784x128) (0 : Fin 3) _ _ _ (ix3 (0 : Fin 2) r c) rfl (ix3 (0 : Fin 1) r c) fun b => ?_).trans ?_
  · match b with
    | ⟨0, _⟩ => rfl
    | ⟨1, _⟩ => rfl
    | ⟨2, _⟩ => rfl
  refine (broadcastInDim_apply _ _ _ (ix3 (0 : Fin 1) r c) (ix2 r c) fun a => ?_).trans ?_
  · match a with
    | ⟨0, _⟩ => rfl
    | ⟨1, _⟩ => rfl
  rw [maskOf_apply]
  show Scalar.select (IntOp.cmpi .sge (colNo (ix2 r (0 : Fin 1))) _) _ _ = _
  rw [colNo_apply]
  have h28 : r.val % 28 < 28 := Nat.mod_lt _ (by norm_num)
  have e := sge_one ⟨r.val % 28, h28⟩
  show Scalar.select (IntOp.cmpi .sge (BitVec.ofNat 32 (r.val % 28)) 1#32) _ _ = _
  rw [e]
  by_cases h : 1 ≤ r.val % 28
  · rw [if_pos h, if_pos h]; exact select_one _ _
  · rw [if_neg h, if_neg h]; exact select_zero _ _

/-- The second mask: one where the column has a right neighbour. -/
theorem masks_right (r : Fin 784) (c : Fin 128) :
    masks (ix3 (1 : Fin 2) r c)
      = if r.val % 28 ≤ 26 then Ideal.ofBits .f32 0x3F800000#32 else Ideal.ofBits .f32 0x00000000#32 := by
  unfold masks
  refine (concatenate_pair_apply_right (t := S2x784x128) (s₁ := S1x784x128) (s₂ := S1x784x128) (0 : Fin 3) _ _ _ (ix3 (1 : Fin 2) r c) rfl rfl (ix3 (0 : Fin 1) r c) (fun b hb => ?_) rfl).trans ?_
  · match b with
    | ⟨0, _⟩ => exact absurd rfl hb
    | ⟨1, _⟩ => rfl
    | ⟨2, _⟩ => rfl
  refine (broadcastInDim_apply _ _ _ (ix3 (0 : Fin 1) r c) (ix2 r c) fun a => ?_).trans ?_
  · match a with
    | ⟨0, _⟩ => rfl
    | ⟨1, _⟩ => rfl
  rw [maskOf_apply]
  show Scalar.select (IntOp.cmpi .sle (colNo (ix2 r (0 : Fin 1))) _) _ _ = _
  rw [colNo_apply]
  have h28 : r.val % 28 < 28 := Nat.mod_lt _ (by norm_num)
  have e := sle_26 ⟨r.val % 28, h28⟩
  show Scalar.select (IntOp.cmpi .sle (BitVec.ofNat 32 (r.val % 28)) 26#32) _ _ = _
  rw [e]
  by_cases h : r.val % 28 ≤ 26
  · rw [if_pos h, if_pos h]; exact select_one _ _
  · rw [if_neg h, if_neg h]; exact select_zero _ _

end Cert.ReferenceIdeal.RefHost

end
-- ==== Proof.RefPayAct.lean ====
/-
  The hidden activation of the reference program for one image, read at a row and a channel.

  The image is stored position by position: row `r = i·28 + j` of the matrix holds position `(i, j)`. The activation
  T of shape [784, 128] is, at row `r` and channel `c`, the specification's `actOf` at `(r / 28, r mod 28, c)`.
-/
import proofs.«159024_g2000605899403188_pallasbulk_86_30_alg».proof.Proof.Gen.ReferenceIdeal.Skeleton
import proofs.«159024_g2000605899403188_pallasbulk_86_30_alg».proof.Proof.Spec
import proofs.«159024_g2000605899403188_pallasbulk_86_30_alg».proof.Proof.LibDenseAt
import proofs.«159024_g2000605899403188_pallasbulk_86_30_alg».proof.Proof.LibPlainDot
import proofs.«159024_g2000605899403188_pallasbulk_86_30_alg».proof.Proof.LibAxes

noncomputable section

namespace Cert.ReferenceIdeal.RefPay

open Idealize.ShloMosaic Idealize.ShloMosaic.ValueIdx Cert.ReferenceIdeal Cert.ReferenceIdeal.Gen Cert.DenseConv

/-- The image read position by position: entry `(i, j, k)` is row `i·28 + j`, channel `k` of the stored block. -/
abbrev img (x0 : Vec Ideal S1x784x256 .f32) : Fin 28 → Fin 28 → Fin 256 → EReal :=
  fun i' j' k => x0 (ix3 (0 : Fin 1) (⟨i'.val * 28 + j'.val, by have := i'.isLt; have := j'.isLt; omega⟩ : Fin 784) k)

/-- The activation of the whole image, position by position. -/
abbrev T (x0 : Vec Ideal S1x784x256 .f32) (x1 x2 : Vec Ideal S1x256 .f32) (x3 : Vec Ideal S256x128 .f32)
    (x4 : Vec Ideal S1x128 .f32) : Fin 28 → Fin 28 → Fin 128 → EReal :=
  actOf (img x0) x1 x2 x3 x4

/-- A row's image row. -/
abbrev rowOf (r : Fin 784) : Fin 28 := ⟨r.val / 28, by have := r.isLt; omega⟩
/-- A row's image column. -/
abbrev colOf (r : Fin 784) : Fin 28 := ⟨r.val % 28, Nat.mod_lt _ (by norm_num)⟩

/-- A bias row [1, 256] broadcast to [784, 256], read at (r, k). -/
theorem bcast256_at (x : Vec Ideal S1x256 .f32) (r : Fin 784) (k : Fin 256) :
    broadcastTo S784x256 x broadcasts_S1x256_S784x256 (ix2 r k) = x (ix2 (0 : Fin 1) k) := by
  refine broadcastTo_apply x broadcasts_S1x256_S784x256 (ix2 r k) (ix2 (0 : Fin 1) k) fun ax => ?_
  match ax with
  | ⟨0, _⟩ => rfl
  | ⟨1, _⟩ => rfl

/-- The activation matrix at row `r`, channel `c`. -/
theorem pay2_at (x0 : Vec Ideal S1x784x256 .f32) (x1 x2 : Vec Ideal S1x256 .f32) (x3 : Vec Ideal S256x128 .f32)
    (x4 : Vec Ideal S1x128 .f32) (r : Fin 784) (c : Fin 128) :
    k0_pay2 x0 x1 x2 x3 x4 (ix2 r c) = T x0 x1 x2 x3 x4 (rowOf r) (colOf r) c := by
  unfold k0_pay2
  refine (Cert.LibDenseAt.dense_at dot_S784x256_S256x128_S784x128_1_0_0_1_n_n rfl rfl rfl rfl
    (Cert.LibPlainDot.lhs_row _ rfl rfl) (Cert.LibPlainDot.rhs_col _ rfl rfl rfl rfl) _ x3 x4
    broadcasts_S1x128_S784x128 r c).trans ?_
  show Cert.LibDenseAt.unit _ _ _ = actOf (img x0) x1 x2 x3 x4 (rowOf r) (colOf r) c
  unfold Cert.LibDenseAt.unit actOf
  refine congrArg (fun s => max (s + x4 (ix2 (0 : Fin 1) c)) zero) (Finset.sum_congr rfl fun k _ => ?_)
  refine congrArg (fun s => s * x3 (ix2 k c)) ?_
  beta_reduce
  rw [maximumf_apply, addf_apply, mulf_apply, broadcast_apply, bcast256_at, bcast256_at,
    Cert.LibAxes.shapeCast_abc_nc_apply x0 shapeCasts_S1x784x256_S784x256 (0 : Fin 1) r k r (by simp)]
  have hr : (⟨(rowOf r).val * 28 + (colOf r).val, by have := (rowOf r).isLt; have := (colOf r).isLt; omega⟩ : Fin 784) = r :=
    Fin.ext (by show r.val / 28 * 28 + r.val % 28 = r.val; omega)
  show max (x0 (ix3 (0 : Fin 1) r k) * _ + _) _ = max (x0 (ix3 (0 : Fin 1) _ k) * _ + _) _
  rw [hr]
  rfl

end Cert.ReferenceIdeal.RefPay

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.LibSmallF32.lean ====
import Idealize.ShloMosaic.PureOps.Ideal

/-!
# The single-precision patterns of the integers 1 … 9

At the exact instance a float literal denotes the dyadic rational its IEEE pattern spells. For the nine small
integers that multiply an angle (`m·φ`, `m = 1 … 9`) that rational is the integer itself.
-/

noncomputable section

namespace Cert.LibSmallF32

open Idealize.ShloMosaic

theorem f32_1 : Ideal.ofBits .f32 0x3F800000#32 = ((1 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_4 : Ideal.ofBits .f32 0x40800000#32 = ((4 : ℝ) : EReal) := by
  simp [Ideal.ofBits, Ideal.ieee, -EReal.coe_mul]; norm_num
theorem f32_5 : Ideal.ofBits .f32 0x40A00000#32 = ((5 : ℝ) : EReal) := by
  simp [Ideal.ofBits, Ideal.ieee, -EReal.coe_mul]; norm_num
theorem f32_6 : Ideal.ofBits .f32 0x40C00000#32 = ((6 : ℝ) : EReal) := by
  simp [Ideal.ofBits, Ideal.ieee, -EReal.coe_mul]; norm_num
theorem f32_7 : Ideal.ofBits .f32 0x40E00000#32 = ((7 : ℝ) : EReal) := by
  simp [Ideal.ofBits, Ideal.ieee, -EReal.coe_mul]; norm_num
theorem f32_8 : Ideal.ofBits .f32 0x41000000#32 = ((8 : ℝ) : EReal) := by
  simp [Ideal.ofBits, Ideal.ieee, -EReal.coe_mul]; norm_num
theorem f32_9 : Ideal.ofBits .f32 0x41100000#32 = ((9 : ℝ) : EReal) := by
  simp [Ideal.ofBits, Ideal.ieee, -EReal.coe_mul]; norm_num

end Cert.LibSmallF32

end
-- ==== Proof.RefPayShift.lean ====
/-
  The nine shifted copies of the activation, each read at a row and a channel.

  With T the activation of the image (28 × 28 positions, 128 channels) and `Cert.DenseConv.pad T` its extension by a border of zeros
  (rows and columns counted from 1), a matrix X of shape [784, 128] SHOWS T shifted by (a, b) when its row
  `r = i·28 + j` holds `Cert.DenseConv.pad T (i + a) (j + b)`: the activation itself is the shift (1, 1), its left neighbour (1, 0),
  its right neighbour (1, 2); putting a block of 28 zero rows above the first 756 rows turns (1, b) into (0, b) — the image
  row above —, and putting it below the last 756 rows turns (1, b) into (2, b) — the image row below.
-/
import proofs.«159024_g2000605899403188_pallasbulk_86_30_alg».proof.Proof.RefPayAct
import proofs.«159024_g2000605899403188_pallasbulk_86_30_alg».proof.Proof.LibConcatAt
import proofs.«159024_g2000605899403188_pallasbulk_86_30_alg».proof.Proof.LibSmallF32
import Idealize.ShloMosaic.Lib.KernelVsHost

noncomputable section

namespace Cert.ReferenceIdeal.RefPay

open Idealize.ShloMosaic Idealize.ShloMosaic.ValueIdx Cert.ReferenceIdeal Cert.ReferenceIdeal.Gen Cert.DenseConv

/-! ## The padded activation -/

theorem pad_of_not (T : Fin 28 → Fin 28 → Fin 128 → EReal) {r s : ℕ} (c : Fin 128)
    (h : ¬((1 ≤ r ∧ r ≤ 28) ∧ (1 ≤ s ∧ s ≤ 28))) : Cert.DenseConv.pad T r s c = 0 := dif_neg h

theorem pad_congr (T : Fin 28 → Fin 28 → Fin 128 → EReal) {r r' s s' : ℕ} (c : Fin 128) (hr : r = r') (hs : s = s') :
    Cert.DenseConv.pad T r s c = Cert.DenseConv.pad T r' s' c := by subst hr hs; rfl

theorem pad_inside (T : Fin 28 → Fin 28 → Fin 128 → EReal) (i j : Fin 28) (c : Fin 128) :
    Cert.DenseConv.pad T (i.val + 1) (j.val + 1) c = T i j c := by
  unfold Cert.DenseConv.pad
  rw [dif_pos (by have := i.isLt; have := j.isLt; omega)]
  rfl

/-- A matrix [784, 128] whose row `i·28 + j` is the padded activation at `(i + a, j + b)`. -/
def Shows (T : Fin 28 → Fin 28 → Fin 128 → EReal) (X : FVec Ideal S784x128 .f32) (a b : ℕ) : Prop :=
  ∀ (r : Fin 784) (c : Fin 128), X (ix2 r c) = Cert.DenseConv.pad T (r.val / 28 + a) (r.val % 28 + b) c

/-! ## Rows moved down or up by one image row, zeros filling the gap -/

section Rows
variable {α : Type}

/-- A block of 28 rows above the first 756 rows of a matrix: row `r` is the block's for `r < 28`, else the matrix's row `r − 28`. -/
theorem above_at (Z : S28x128.Idx → α) (X : S784x128.Idx → α) (r : Fin 784) (c : Fin 128) :
    concatenate S784x128 0 [⟨S28x128, Z⟩, ⟨S756x128, extractStridedSlice S756x128 ![0, 0] X slices_S784x128_o0_0_S756x128⟩]
        concatenates_S28x128_S756x128_S784x128_d0 (ix2 r c)
      = if h : r.val < 28 then Z (ix2 ⟨r.val, h⟩ c) else X (ix2 (⟨r.val - 28, by have := r.isLt; omega⟩ : Fin 784) c) := by
  by_cases h : r.val < 28
  · rw [dif_pos h]
    exact Cert.LibConcatAt.stacked_at (R := 784) (N := 128) (W := 28) [⟨S28x128, Z⟩, ⟨S756x128, extractStridedSlice S756x128 ![0, 0] X slices_S784x128_o0_0_S756x128⟩]
      concatenates_S28x128_S756x128_S784x128_d0 r c 0 Z rfl 0 rfl ⟨r.val, h⟩ (by simp)
  · rw [dif_neg h]
    refine (Cert.LibConcatAt.stacked_at (R := 784) (N := 128) (W := 756) [⟨S28x128, Z⟩, ⟨S756x128, extractStridedSlice S756x128 ![0, 0] X slices_S784x128_o0_0_S756x128⟩]
      concatenates_S28x128_S756x128_S784x128_d0 r c 1 _ rfl 28 rfl
      (⟨r.val - 28, by have := r.isLt; omega⟩ : Fin 756) (by show 28 + (r.val - 28) = r.val; omega)).trans ?_
    refine extractStridedSlice_apply ![0, 0] X slices_S784x128_o0_0_S756x128 _ _ fun a => ?_
    match a with
    | ⟨0, _⟩ => show r.val - 28 = 0 + (r.val - 28); omega
    | ⟨1, _⟩ => show c.val = 0 + c.val; omega

/-- A block of 28 rows below the last 756 rows of a matrix: row `r` is the matrix's row `r + 28` for `r < 756`, else the block's. -/
theorem below_at (Z : S28x128.Idx → α) (X : S784x128.Idx → α) (r : Fin 784) (c : Fin 128) :
    concatenate S784x128 0 [⟨S756x128, extractStridedSlice S756x128 ![28, 0] X slices_S784x128_o28_0_S756x128⟩, ⟨S28x128, Z⟩]
        concatenates_S756x128_S28x128_S784x128_d0 (ix2 r c)
      = if h : r.val < 756 then X (ix2 (⟨r.val + 28, by omega⟩ : Fin 784) c)
        else Z (ix2 (⟨r.val - 756, by have := r.isLt; omega⟩ : Fin 28) c) := by
  by_cases h : r.val < 756
  · rw [dif_pos h]
    refine (Cert.LibConcatAt.stacked_at (R := 784) (N := 128) (W := 756) [⟨S756x128, extractStridedSlice S756x128 ![28, 0] X slices_S784x128_o28_0_S756x128⟩, ⟨S28x128, Z⟩]
      concatenates_S756x128_S28x128_S784x128_d0 r c 0 _ rfl 0 rfl
      (⟨r.val, h⟩ : Fin 756) (by simp)).trans ?_
    refine extractStridedSlice_apply ![28, 0] X slices_S784x128_o28_0_S756x128 _ _ fun a => ?_
    match a with
    | ⟨0, _⟩ => show r.val + 28 = 28 + r.val; omega
    | ⟨1, _⟩ => show c.val = 0 + c.val; omega
  · rw [dif_neg h]
    exact Cert.LibConcatAt.stacked_at (R := 784) (N := 128) (W := 28) [⟨S756x128, extractStridedSlice S756x128 ![28, 0] X slices_S784x128_o28_0_S756x128⟩, ⟨S28x128, Z⟩]
      concatenates_S756x128_S28x128_S784x128_d0 r c 1 Z rfl 756 rfl
      (⟨r.val - 756, by have := r.isLt; omega⟩ : Fin 28) (by show 756 + (r.val - 756) = r.val; omega)

end Rows

section Moved
variable (T : Fin 28 → Fin 28 → Fin 128 → EReal)

/-- The image row above: zeros over the first 756 rows. -/
theorem above_shows (Z : FVec Ideal S28x128 .f32) (hZ : ∀ (r : Fin 28) (c : Fin 128), Z (ix2 r c) = 0)
    (X : FVec Ideal S784x128 .f32) (b : ℕ) (hX : Shows T X 1 b) :
    Shows T (concatenate S784x128 0 [⟨S28x128, Z⟩, ⟨S756x128, extractStridedSlice S756x128 ![0, 0] X slices_S784x128_o0_0_S756x128⟩]
        concatenates_S28x128_S756x128_S784x128_d0) 0 b := by
  intro r c
  rw [above_at Z X r c]
  by_cases h : r.val < 28
  · rw [dif_pos h, hZ]
    exact (pad_of_not T c (by omega)).symm
  · rw [dif_neg h, hX]
    exact pad_congr T c (by show (r.val - 28) / 28 + 1 = r.val / 28 + 0; omega) (by show (r.val - 28) % 28 + b = r.val % 28 + b; omega)

/-- The image row below: the last 756 rows over zeros. -/
theorem below_shows (Z : FVec Ideal S28x128 .f32) (hZ : ∀ (r : Fin 28) (c : Fin 128), Z (ix2 r c) = 0)
    (X : FVec Ideal S784x128 .f32) (b : ℕ) (hX : Shows T X 1 b) :
    Shows T (concatenate S784x128 0 [⟨S756x128, extractStridedSlice S756x128 ![28, 0] X slices_S784x128_o28_0_S756x128⟩, ⟨S28x128, Z⟩]
        concatenates_S756x128_S28x128_S784x128_d0) 2 b := by
  intro r c
  rw [below_at Z X r c]
  by_cases h : r.val < 756
  · rw [dif_pos h, hX]
    exact pad_congr T c (by show (r.val + 28) / 28 + 1 = r.val / 28 + 2; omega) (by show (r.val + 28) % 28 + b = r.val % 28 + b; omega)
  · rw [dif_neg h, hZ]
    exact (pad_of_not T c (by have := r.isLt; omega)).symm

end Moved

/-! ## The activation and its two neighbours in the row -/

section Pieces
variable (x0 : Vec Ideal S1x784x256 .f32) (x1 x2 : Vec Ideal S1x256 .f32) (x3 : Vec Ideal S256x128 .f32)
  (x4 : Vec Ideal S1x128 .f32)

/-- The activation matrix shows the activation in place. -/
theorem pay2_shows : Shows (T x0 x1 x2 x3 x4) (k0_pay2 x0 x1 x2 x3 x4) 1 1 := by
  intro r c
  rw [pay2_at]
  exact (pad_inside _ (rowOf r) (colOf r) c).symm

/-- A mask [1, 784, 128] recast to [784, 128], at (r, c). -/
theorem mask_at (m : Vec Ideal S1x784x128 .f32) (r : Fin 784) (c : Fin 128) :
    shapeCast S784x128 m shapeCasts_S1x784x128_S784x128 (ix2 r c) = m (ix3 (0 : Fin 1) r c) :=
  Cert.LibAxes.shapeCast_abc_nc_apply m shapeCasts_S1x784x128_S784x128 (0 : Fin 1) r c r (by simp)

/-- The rows rotated by `s`: row `r` of the result is row `(r + 784 − s) mod 784`. -/
theorem rotate_at {α : Type} (X : S784x128.Idx → α) (sb : BitVec 32) (s : ℕ) (hs : sb.toNat % 784 = s) (r : Fin 784) (c : Fin 128) :
    dynamicRotate 0 sb none X rotates_S784x128_d0 (ix2 r c)
      = X (ix2 (⟨(r.val + 784 - s) % 784, Nat.mod_lt _ (by norm_num)⟩ : Fin 784) c) := by
  refine dynamicRotate_apply 0 sb X rotates_S784x128_d0 _ _ fun b => ?_
  match b with
  | ⟨0, _⟩ =>
    show (r.val + 784 - s) % 784 = (r.val + 784 - sb.toNat % 784) % 784
    rw [hs]
  | ⟨1, _⟩ => rfl

/-- The left neighbour: the rows moved down by one, times the mask that is 0 in the first column of the image. -/
theorem pay3_shows (ma : Vec Ideal S1x784x128 .f32)
    (hma : ∀ (r : Fin 784) (c : Fin 128), ma (ix3 (0 : Fin 1) r c)
      = if 1 ≤ r.val % 28 then Ideal.ofBits .f32 0x3F800000#32 else Ideal.ofBits .f32 0x00000000#32) :
    Shows (T x0 x1 x2 x3 x4) (k0_pay3 x0 x1 x2 x3 x4 ma) 1 0 := by
  intro r c
  show mulf (shapeCast S784x128 ma shapeCasts_S1x784x128_S784x128)
    (dynamicRotate 0 1#32 none (k0_pay2 x0 x1 x2 x3 x4) rotates_S784x128_d0) (ix2 r c) = _
  rw [mulf_apply, mask_at, rotate_at _ 1#32 1 (by decide) r c, hma, pay2_shows x0 x1 x2 x3 x4 _ c]
  by_cases h : 1 ≤ r.val % 28
  · rw [if_pos h, Cert.LibSmallF32.f32_1, EReal.coe_one, one_mul]
    exact pad_congr _ c (by show (r.val + 784 - 1) % 784 / 28 + 1 = r.val / 28 + 1; omega)
      (by show (r.val + 784 - 1) % 784 % 28 + 1 = r.val % 28 + 0; omega)
  · rw [if_neg h, Ideal.ofBits_zero_f32, zero_mul]
    exact (pad_of_not _ c (by omega)).symm

/-- The right neighbour: the rows moved up by one, times the mask that is 0 in the last column of the image. -/
theorem pay4_shows (mb : Vec Ideal S1x784x128 .f32)
    (hmb : ∀ (r : Fin 784) (c : Fin 128), mb (ix3 (0 : Fin 1) r c)
      = if r.val % 28 ≤ 26 then Ideal.ofBits .f32 0x3F800000#32 else Ideal.ofBits .f32 0x00000000#32) :
    Shows (T x0 x1 x2 x3 x4) (k0_pay4 x0 x1 x2 x3 x4 mb) 1 2 := by
  intro r c
  show mulf (shapeCast S784x128 mb shapeCasts_S1x784x128_S784x128)
    (dynamicRotate 0 783#32 none (k0_pay2 x0 x1 x2 x3 x4) rotates_S784x128_d0) (ix2 r c) = _
  rw [mulf_apply, mask_at, rotate_at _ 783#32 783 (by decide) r c, hmb, pay2_shows x0 x1 x2 x3 x4 _ c]
  by_cases h : r.val % 28 ≤ 26
  · rw [if_pos h, Cert.LibSmallF32.f32_1, EReal.coe_one, one_mul]
    exact pad_congr _ c (by show (r.val + 784 - 783) % 784 / 28 + 1 = r.val / 28 + 1; have := r.isLt; omega)
      (by show (r.val + 784 - 783) % 784 % 28 + 1 = r.val % 28 + 2; have := r.isLt; omega)
  · rw [if_neg h, Ideal.ofBits_zero_f32, zero_mul]
    exact (pad_of_not _ c (by omega)).symm

/-- The block of zeros. -/
theorem pay5_zero (r : Fin 28) (c : Fin 128) : k0_pay5 (F := Ideal) (ix2 r c) = 0 := Ideal.ofBits_zero_f32

/-! ## The six pieces of the image rows above and below -/

theorem pay6_shows (ma : Vec Ideal S1x784x128 .f32)
    (hma : ∀ (r : Fin 784) (c : Fin 128), ma (ix3 (0 : Fin 1) r c)
      = if 1 ≤ r.val % 28 then Ideal.ofBits .f32 0x3F800000#32 else Ideal.ofBits .f32 0x00000000#32) :
    Shows (T x0 x1 x2 x3 x4) (k0_pay6 x0 x1 x2 x3 x4 ma) 0 0 :=
  above_shows _ _ pay5_zero _ 0 (pay3_shows x0 x1 x2 x3 x4 ma hma)

theorem pay7_shows : Shows (T x0 x1 x2 x3 x4) (k0_pay7 x0 x1 x2 x3 x4) 0 1 :=
  above_shows _ _ pay5_zero _ 1 (pay2_shows x0 x1 x2 x3 x4)

theorem pay8_shows (mb : Vec Ideal S1x784x128 .f32)
    (hmb : ∀ (r : Fin 784) (c : Fin 128), mb (ix3 (0 : Fin 1) r c)
      = if r.val % 28 ≤ 26 then Ideal.ofBits .f32 0x3F800000#32 else Ideal.ofBits .f32 0x00000000#32) :
    Shows (T x0 x1 x2 x3 x4) (k0_pay8 x0 x1 x2 x3 x4 mb) 0 2 :=
  above_shows _ _ pay5_zero _ 2 (pay4_shows x0 x1 x2 x3 x4 mb hmb)

theorem pay9_shows (ma : Vec Ideal S1x784x128 .f32)
    (hma : ∀ (r : Fin 784) (c : Fin 128), ma (ix3 (0 : Fin 1) r c)
      = if 1 ≤ r.val % 28 then Ideal.ofBits .f32 0x3F800000#32 else Ideal.ofBits .f32 0x00000000#32) :
    Shows (T x0 x1 x2 x3 x4) (k0_pay9 x0 x1 x2 x3 x4 ma) 2 0 :=
  below_shows _ _ pay5_zero _ 0 (pay3_shows x0 x1 x2 x3 x4 ma hma)

theorem pay10_shows : Shows (T x0 x1 x2 x3 x4) (k0_pay10 x0 x1 x2 x3 x4) 2 1 :=
  below_shows _ _ pay5_zero _ 1 (pay2_shows x0 x1 x2 x3 x4)

end Pieces

end Cert.ReferenceIdeal.RefPay

end
-- ==== Proof.RefPayCols.lean ====
/-
  The window matrix of the reference program, read at a row and a column.

  Nine matrices [784, 128] set side by side, the one in place `n = 3·a + b` showing the activation shifted by (a, b),
  give the matrix [784, 1152] whose row `hw = i·28 + j` is the 3 × 3 window around (i, j): column
  `k = n·128 + c` holds the padded activation at `(i + k / 384, j + (k mod 384) / 128)`, channel `k mod 128`.
-/
import proofs.«159024_g2000605899403188_pallasbulk_86_30_alg».proof.Proof.RefPayShift

noncomputable section

namespace Cert.ReferenceIdeal.RefPay

open Idealize.ShloMosaic Idealize.ShloMosaic.ValueIdx Cert.ReferenceIdeal Cert.ReferenceIdeal.Gen Cert.DenseConv

/-- Piece `n` of matrices [784, 128] set side by side into [784, 1152], when it shows the activation shifted by
    `(n / 3, n mod 3)`, read at a column `k` with `k / 128 = n`. -/
theorem piece_at (A : Fin 28 → Fin 28 → Fin 128 → EReal) (xs : List ((s : Shape) × (s.Idx → EReal)))
    (h : Shape.Concatenates (xs.map (·.1)) S784x1152 (1 : Fin 2)) (hw : Fin 784) (k : Fin 1152)
    (n : ℕ) (X : FVec Ideal S784x128 .f32) (a b : ℕ) (hX : Shows A X a b)
    (hxs : xs[n]? = some ⟨S784x128, X⟩)
    (hpre : (Cert.LibConcatAt.extents (t := S784x1152) (1 : Fin 2) ((xs.take n).map (·.1))).sum = n * 128)
    (hn : k.val / 128 = n) (ha : n / 3 = a) (hb : n % 3 = b) :
    concatenate S784x1152 (1 : Fin 2) xs h (ix2 hw k)
      = Cert.DenseConv.pad A (hw.val / 28 + k.val / 384) (hw.val % 28 + k.val % 384 / 128)
          ⟨k.val % 128, Nat.mod_lt _ (by norm_num)⟩ := by
  refine (Cert.LibConcatAt.sideBySide_at (N := 784) (K := 1152) (W := 128) xs h hw k n X hxs (n * 128) hpre
    (⟨k.val % 128, Nat.mod_lt _ (by norm_num)⟩ : Fin 128) (by show n * 128 + k.val % 128 = k.val; omega)).trans ?_
  rw [hX hw _]
  exact pad_congr A _ (by omega) (by omega)

/-- The nine pieces side by side, at row `hw`, column `k`. -/
theorem cols_at (A : Fin 28 → Fin 28 → Fin 128 → EReal) (v27 v29 v31 v20 v16 v24 v33 v35 v37 : FVec Ideal S784x128 .f32)
    (h27 : Shows A v27 0 0) (h29 : Shows A v29 0 1) (h31 : Shows A v31 0 2)
    (h20 : Shows A v20 1 0) (h16 : Shows A v16 1 1) (h24 : Shows A v24 1 2)
    (h33 : Shows A v33 2 0) (h35 : Shows A v35 2 1) (h37 : Shows A v37 2 2)
    (hw : Fin 784) (k : Fin 1152) :
    concatenate S784x1152 1 [⟨S784x128, v27⟩, ⟨S784x128, v29⟩, ⟨S784x128, v31⟩, ⟨S784x128, v20⟩, ⟨S784x128, v16⟩,
        ⟨S784x128, v24⟩, ⟨S784x128, v33⟩, ⟨S784x128, v35⟩, ⟨S784x128, v37⟩]
        concatenates_S784x128_S784x128_S784x128_S784x128_S784x128_S784x128_S784x128_S784x128_S784x128_S784x1152_d1 (ix2 hw k)
      = Cert.DenseConv.pad A (hw.val / 28 + k.val / 384) (hw.val % 28 + k.val % 384 / 128)
          ⟨k.val % 128, Nat.mod_lt _ (by norm_num)⟩ := by
  have hk := k.isLt
  have h9 : k.val / 128 = 0 ∨ k.val / 128 = 1 ∨ k.val / 128 = 2 ∨ k.val / 128 = 3 ∨ k.val / 128 = 4 ∨ k.val / 128 = 5
      ∨ k.val / 128 = 6 ∨ k.val / 128 = 7 ∨ k.val / 128 = 8 := by omega
  rcases h9 with hn | hn | hn | hn | hn | hn | hn | hn | hn
  · exact piece_at A _ _ hw k 0 v27 0 0 h27 rfl rfl hn rfl rfl
  · exact piece_at A _ _ hw k 1 v29 0 1 h29 rfl rfl hn rfl rfl
  · exact piece_at A _ _ hw k 2 v31 0 2 h31 rfl rfl hn rfl rfl
  · exact piece_at A _ _ hw k 3 v20 1 0 h20 rfl rfl hn rfl rfl
  · exact piece_at A _ _ hw k 4 v16 1 1 h16 rfl rfl hn rfl rfl
  · exact piece_at A _ _ hw k 5 v24 1 2 h24 rfl rfl hn rfl rfl
  · exact piece_at A _ _ hw k 6 v33 2 0 h33 rfl rfl hn rfl rfl
  · exact piece_at A _ _ hw k 7 v35 2 1 h35 rfl rfl hn rfl rfl
  · exact piece_at A _ _ hw k 8 v37 2 2 h37 rfl rfl hn rfl rfl

end Cert.ReferenceIdeal.RefPay

end
-- ==== Proof.RefPay.lean ====
/-
  The reference kernel's arithmetic for one image, read at an entry of its convolution output.
-/
import proofs.«159024_g2000605899403188_pallasbulk_86_30_alg».proof.Proof.Gen.ReferenceIdeal.Skeleton
import proofs.«159024_g2000605899403188_pallasbulk_86_30_alg».proof.Proof.Spec
import proofs.«159024_g2000605899403188_pallasbulk_86_30_alg».proof.Proof.RefPayCols

noncomputable section

namespace Cert.ReferenceIdeal.RefPay

open Idealize.ShloMosaic Idealize.ShloMosaic.ValueIdx Cert.ReferenceIdeal Cert.ReferenceIdeal.Gen Cert.DenseConv

/-- The stored convolution of one image: at position `hw = i·28 + j`, output channel `g`, when the two masks `ma`, `mb`
    are 1 where the column has a left (right) neighbour and 0 at the left (right) border, as patterns of f32. -/
theorem pay_conv (x0 : Vec Ideal S1x784x256 .f32) (x1 x2 : Vec Ideal S1x256 .f32) (x3 : Vec Ideal S256x128 .f32)
    (x4 : Vec Ideal S1x128 .f32) (x5 : Vec Ideal S1152x32 .f32) (ma mb : Vec Ideal S1x784x128 .f32)
    (hma : ∀ (r : Fin 784) (c : Fin 128), ma (ix3 (0 : Fin 1) r c)
      = if 1 ≤ r.val % 28 then Ideal.ofBits .f32 0x3F800000#32 else Ideal.ofBits .f32 0x00000000#32)
    (hmb : ∀ (r : Fin 784) (c : Fin 128), mb (ix3 (0 : Fin 1) r c)
      = if r.val % 28 ≤ 26 then Ideal.ofBits .f32 0x3F800000#32 else Ideal.ofBits .f32 0x00000000#32)
    (i j : Fin 28) (hw : Fin 784) (hhw : hw.val = i.val * 28 + j.val) (g : Fin 32) :
    k0_pay1 (k0_pay2 x0 x1 x2 x3 x4) (k0_pay3 x0 x1 x2 x3 x4 ma) (k0_pay4 x0 x1 x2 x3 x4 mb) (k0_pay5 (F := Ideal))
        (k0_pay6 x0 x1 x2 x3 x4 ma) (k0_pay7 x0 x1 x2 x3 x4) (k0_pay8 x0 x1 x2 x3 x4 mb) (k0_pay9 x0 x1 x2 x3 x4 ma)
        (k0_pay10 x0 x1 x2 x3 x4) x5 (ix3 (0 : Fin 1) hw g)
      = convOf (actOf (fun i' j' k => x0 (ix3 (0 : Fin 1) (⟨i'.val * 28 + j'.val, by have := i'.isLt; have := j'.isLt; omega⟩ : Fin 784) k)) x1 x2 x3 x4)
          (fun k => x5 (ix2 k g)) i j := by
  unfold k0_pay1
  -- the recast [784, 32] → [1, 784, 32] reads entry (hw, g) of the product
  refine (Cert.LibAxes.shapeCast_nc_abc_apply _ shapeCasts_S784x32_S1x784x32 (0 : Fin 1) hw g hw (by simp)).trans ?_
  -- the product into the zero accumulator is the sum over the 1152 columns of the window matrix
  refine (Cert.LibPlainDot.matmul_zero_at dot_S784x1152_S1152x32_S784x32_1_0_0_1_n_n rfl rfl rfl rfl rfl rfl rfl rfl
    none _ x5 hw g).trans ?_
  show _ = convOf (T x0 x1 x2 x3 x4) (fun k => x5 (ix2 k g)) i j
  unfold convOf
  refine Finset.sum_congr rfl fun k _ => ?_
  refine congrArg (fun s => s * x5 (ix2 k g)) ?_
  -- column k of the window matrix is the padded activation the specification names
  refine (cols_at (T x0 x1 x2 x3 x4) _ _ _ _ _ _ _ _ _
    (pay6_shows x0 x1 x2 x3 x4 ma hma) (pay7_shows x0 x1 x2 x3 x4) (pay8_shows x0 x1 x2 x3 x4 mb hmb)
    (pay3_shows x0 x1 x2 x3 x4 ma hma) (pay2_shows x0 x1 x2 x3 x4) (pay4_shows x0 x1 x2 x3 x4 mb hmb)
    (pay9_shows x0 x1 x2 x3 x4 ma hma) (pay10_shows x0 x1 x2 x3 x4)
    (below_shows _ _ pay5_zero _ 2 (pay4_shows x0 x1 x2 x3 x4 mb hmb)) hw k).trans ?_
  have hi := i.isLt
  have hj := j.isLt
  exact pad_congr _ _ (by show hw.val / 28 + k.val / 384 = i.val + k.val / 384; omega)
    (by show hw.val % 28 + k.val % 384 / 128 = j.val + k.val % 384 / 128; omega)

end Cert.ReferenceIdeal.RefPay

end
-- ==== Proof.RefRunBlock.lean ====
/-
  What one grid point of the reference's kernel launch writes back: at point t, the convolution of image t, as a block of
  one function of the program's arguments over the whole [48, 784, 32] output array.
-/
import proofs.«159024_g2000605899403188_pallasbulk_86_30_alg».proof.Proof.RefRunHostAt
import proofs.«159024_g2000605899403188_pallasbulk_86_30_alg».proof.Proof.RefPay
import proofs.«159024_g2000605899403188_pallasbulk_86_30_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Cert.DenseConv Cert.ReferenceIdeal.RefHost

set_option maxRecDepth 16384

/-- The launch's output array [48, 784, 32] as one function of the arguments: entry (n, hw, g) is the convolution of image
    n for output channel g at row hw / 28, column hw mod 28. -/
def G (x : S48x256x28x28.Idx → EReal) (s1 b1 : S1x256.Idx → EReal) (w1 : S256x128.Idx → EReal) (b2 : S1x128.Idx → EReal)
    (w2 : S1152x32.Idx → EReal) : S48x784x32.Idx → EReal := fun y =>
  convOf (actOf (fun i j k => x (ix4 (y 0) k i j)) s1 b1 w1 b2) (fun k => w2 (ix2 k (y 2)))
    (⟨(y 1).val / 28, by have h : (y 1).val < 784 := (y 1).isLt; omega⟩ : Fin 28)
    (⟨(y 1).val % 28, Nat.mod_lt _ (by norm_num)⟩ : Fin 28)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 48 grid points: the input and output windows move along the image axis, block t
    being image t; the other windows stay on their whole arrays. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0 :=
  (by decide +kernel : ∀ t : Fin grid0.N, _)

/-- The body's result over any blocks whose mask block is the two column masks: the convolution of the image block. -/
theorem block_conv (x0 : Vec Ideal S1x784x256 .f32) (x1 x2 : Vec Ideal S1x256 .f32) (x3 : Vec Ideal S256x128 .f32)
    (x4 : Vec Ideal S1x128 .f32) (x5 : Vec Ideal S1152x32 .f32) (x6 : Vec Ideal S2x784x128 .f32) (h6 : x6 = masks)
    (i j : Fin 28) (hw : Fin 784) (hhw : hw.val = i.val * 28 + j.val) (g : Fin 32) :
    out0_7 x0 x1 x2 x3 x4 x5 x6 (ix3 (0 : Fin 1) hw g)
      = convOf (actOf (fun i' j' k => x0 (ix3 (0 : Fin 1) (⟨i'.val * 28 + j'.val, by have := i'.isLt; have := j'.isLt; omega⟩ : Fin 784) k)) x1 x2 x3 x4)
          (fun k => x5 (ix2 k g)) i j := by
  unfold out0_7
  rw [View.canon_unit_zero hz3]
  simp only [View.ld_unit_zero (S := S1x784x256) hz3, View.ld_unit_zero (S := S1x256) hz2, View.ld_unit_zero (S := S256x128) hz2,
    View.ld_unit_zero (S := S1x128) hz2, View.ld_unit_zero (S := S1152x32) hz2]
  refine Cert.ReferenceIdeal.RefPay.pay_conv x0 x1 x2 x3 x4 x5 (View.ld x6 r0_4) (View.ld x6 r0_5) (fun r c => ?_) (fun r c => ?_) i j hw hhw g
  · have e : (r0_4 : Rect S2x784x128).idx (ix3 (0 : Fin 1) r c) = ix3 (0 : Fin 2) r c := funext fun a => Fin.ext (by
      match a with
      | ⟨0, _⟩ => rfl
      | ⟨1, _⟩ => exact (by omega : 0 + 1 * r.val = r.val)
      | ⟨2, _⟩ => exact (by omega : 0 + 1 * c.val = c.val))
    show x6 ((r0_4 : Rect S2x784x128).idx (ix3 (0 : Fin 1) r c)) = _
    rw [e, h6]
    exact masks_left r c
  · have e : (r0_5 : Rect S2x784x128).idx (ix3 (0 : Fin 1) r c) = ix3 (1 : Fin 2) r c := funext fun a => Fin.ext (by
      match a with
      | ⟨0, _⟩ => rfl
      | ⟨1, _⟩ => exact (by omega : 0 + 1 * r.val = r.val)
      | ⟨2, _⟩ => exact (by omega : 0 + 1 * c.val = c.val))
    show x6 ((r0_5 : Rect S2x784x128).idx (ix3 (0 : Fin 1) r c)) = _
    rw [e, h6]
    exact masks_right r c

/-- The image window's block at point t is image t of the re-laid input. -/
theorem iblk0_apply (c : Dev nD) (t : Fin cfg0.N) (n : Fin 48) (hn : n.val = t.val) (hw : Fin 784) (k : Fin 256) (i j : Fin 28)
    (h : hw.val = i.val * 28 + j.val) :
    iblk m c 0 t (ix3 (0 : Fin 1) hw k) = (m ((c : Thread nD τ).loc main_arg0) : S48x256x28x28.Idx → EReal) (ix4 n k i j) := by
  obtain ⟨e0, e1, e2, -⟩ := idx_facts t
  refine Eq.trans ?_ (xFlat_apply (m ((c : Thread nD τ).loc main_arg0)) n hw k i j h)
  refine Eq.trans ?_ (congrFun (V_v1 m c) (ix3 n hw k))
  show (V m c main_v1 : S48x784x256.Idx → EReal) (((cfg0.win 0).blk t).view.emb (ix3 (0 : Fin 1) hw k)) = _
  refine congrArg _ (funext fun a => Fin.ext ?_)
  match a with
  | ⟨0, _⟩ => show win0_0.index t (0 : Fin 3) * 1 + 1 * 0 = n.val; omega
  | ⟨1, _⟩ => show win0_0.index t (1 : Fin 3) * 784 + 1 * hw.val = hw.val; omega
  | ⟨2, _⟩ => show win0_0.index t (2 : Fin 3) * 256 + 1 * k.val = k.val; omega

/-- The other input windows' blocks are their whole arrays at every point. -/
theorem iblk1_eq (c : Dev nD) (t : Fin cfg0.N) :
    (iblk m c 1 t : S1x256.Idx → EReal) = (m ((c : Thread nD τ).loc main_arg1) : S1x256.Idx → EReal) := by
  obtain ⟨-, -, -, -, -, -, e0, e1, -⟩ := idx_facts t
  funext y
  refine Eq.trans ?_ (congrFun (V_main_arg1 m c) y)
  show (V m c main_arg1 : S1x256.Idx → EReal) (((cfg0.win 1).blk t).view.emb y) = _
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 256 + 1 * (y 1).val = (y 1).val; omega
theorem iblk2_eq (c : Dev nD) (t : Fin cfg0.N) :
    (iblk m c 2 t : S1x256.Idx → EReal) = (m ((c : Thread nD τ).loc main_arg2) : S1x256.Idx → EReal) := by
  obtain ⟨-, -, -, -, -, -, -, -, e0, e1, -⟩ := idx_facts t
  funext y
  refine Eq.trans ?_ (congrFun (V_main_arg2 m c) y)
  show (V m c main_arg2 : S1x256.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega
theorem iblk3_eq (c : Dev nD) (t : Fin cfg0.N) :
    (iblk m c 3 t : S256x128.Idx → EReal) = (m ((c : Thread nD τ).loc main_arg3) : S256x128.Idx → EReal) := by
  obtain ⟨-, -, -, -, -, -, -, -, -, -, e0, e1, -⟩ := idx_facts t
  funext y
  refine Eq.trans ?_ (congrFun (V_main_arg3 m c) y)
  show (V m c main_arg3 : S256x128.Idx → EReal) (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega
theorem iblk4_eq (c : Dev nD) (t : Fin cfg0.N) :
    (iblk m c 4 t : S1x128.Idx → EReal) = (m ((c : Thread nD τ).loc main_arg4) : S1x128.Idx → EReal) := by
  obtain ⟨-, -, -, -, -, -, -, -, -, -, -, -, e0, e1, -⟩ := idx_facts t
  funext y
  refine Eq.trans ?_ (congrFun (V_main_arg4 m c) y)
  show (V m c main_arg4 : S1x128.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega
theorem iblk5_eq (c : Dev nD) (t : Fin cfg0.N) :
    (iblk m c 5 t : S1152x32.Idx → EReal) = (m ((c : Thread nD τ).loc main_arg5) : S1152x32.Idx → EReal) := by
  obtain ⟨-, -, -, -, -, -, -, -, -, -, -, -, -, -, e0, e1, -⟩ := idx_facts t
  funext y
  refine Eq.trans ?_ (congrFun (V_main_arg5 m c) y)
  show (V m c main_arg5 : S1152x32.Idx → EReal) (((cfg0.win 5).blk t).view.emb y) = _
  refine congrArg _ (funext fun a => Fin.ext ?_)
  match a with
  | ⟨0, _⟩ => show win0_5.index t (0 : Fin 2) * 1152 + 1 * (y 0).val = (y 0).val; omega
  | ⟨1, _⟩ => show win0_5.index t (1 : Fin 2) * 32 + 1 * (y 1).val = (y 1).val; omega
/-- The mask window's block is the two column masks at every point. -/
theorem iblk6_eq (c : Dev nD) (t : Fin cfg0.N) : (iblk m c 6 t : S2x784x128.Idx → EReal) = masks := by
  obtain ⟨-, -, -, -, -, -, -, -, -, -, -, -, -, -, -, -, e0, e1, e2⟩ := idx_facts t
  funext y
  refine Eq.trans ?_ (congrFun (V_v16 m c) y)
  show (V m c main_v16 : S2x784x128.Idx → EReal) (((cfg0.win 6).blk t).view.emb y) = _
  refine congrArg _ (funext fun a => Fin.ext ?_)
  match a with
  | ⟨0, _⟩ => show win0_6.index t (0 : Fin 3) * 2 + 1 * (y 0).val = (y 0).val; omega
  | ⟨1, _⟩ => show win0_6.index t (1 : Fin 3) * 784 + 1 * (y 1).val = (y 1).val; omega
  | ⟨2, _⟩ => show win0_6.index t (2 : Fin 3) * 128 + 1 * (y 2).val = (y 2).val; omega

end Cert.ReferenceIdeal.RefValue

end
-- ==== Proof.RefRunCover.lean ====
/-
  The reference program's output window covers its array: the array [48, 784, 32] is written back in 48 blocks [1, 784, 32],
  image n by grid point n.
-/
import proofs.«159024_g2000605899403188_pallasbulk_86_30_alg».proof.Proof.Gen.ReferenceIdeal.Frame
import Idealize.ShloMosaic.Lib.Pipeline.Value
import Idealize.ShloMosaic.Lib.ValueIdx
set_option maxRecDepth 16384

noncomputable section

namespace Cert.ReferenceIdeal.RefCover

open Cert.ReferenceIdeal Cert.ReferenceIdeal.Gen Idealize.ShloMosaic Idealize.ShloMosaic.TcCoe Idealize.SL.Sem Idealize.ShloMosaic.ValueIdx
open Idealize.ShloMosaic.Pipeline (Dat)

/-- The printed index maps of the input window and the output window over the 48 grid points: both move along the image
    axis, block t holding image t. -/
theorem idx_facts7 : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0 :=
  (by decide +kernel : ∀ t : Fin grid0.N, _)

/-- An entry of the output array lies in point t's block iff each coordinate lies in the block's range. -/
theorem mem_blk (t : Fin cfg0.N) (y : S48x784x32.Idx) :
    y ∈ ((cfg0.win 7).blk t).view.set ↔ ∀ a : Fin 3, win0_7.index t a * S1x784x32.size a ≤ (y a).val ∧ (y a).val < win0_7.index t a * S1x784x32.size a + S1x784x32.size a := by
  show y ∈ ((View.whole main_v17).slice (win0_7.rect t)).set ↔ _
  rw [View.set_slice_whole, Rect.mem_set_unit]
  exact Iff.rfl

/-- Every image is some point's. -/
theorem idx_onto : ∀ q : Fin 48, ∃ t : Fin cfg0.N, win0_7.index t = ![q.val, 0, 0] :=
  (by decide +kernel : ∀ q : Fin 48, ∃ t : Fin grid0.N, win0_7.index t = ![q.val, 0, 0])

/-- Image n is written back by point n: the blocks cover the array. -/
theorem cover (y : S48x784x32.Idx) : ∃ t : Fin cfg0.N, (cfg0.win 7).flush t = true ∧ y ∈ ((cfg0.win 7).blk t).view.set := by
  have h0 : (y 0).val < 48 := (y 0).isLt
  have h1 : (y 1).val < 784 := (y 1).isLt
  have h2 : (y 2).val < 32 := (y 2).isLt
  obtain ⟨t, ht⟩ := idx_onto ⟨(y 0).val, h0⟩
  have q0 : win0_7.index t (0 : Fin 3) = (y 0).val := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (y 0).val ∧ (y 0).val < win0_7.index t (0 : Fin 3) * 1 + 1; omega
  | ⟨1, _⟩ => show win0_7.index t (1 : Fin 3) * 784 ≤ (y 1).val ∧ (y 1).val < win0_7.index t (1 : Fin 3) * 784 + 784; omega
  | ⟨2, _⟩ => show win0_7.index t (2 : Fin 3) * 32 ≤ (y 2).val ∧ (y 2).val < win0_7.index t (2 : Fin 3) * 32 + 32; omega

end Cert.ReferenceIdeal.RefCover

end
-- ==== Proof.RefRunFinal.lean ====
/-
  The reference's launch output array after the run: every image's block is written back by its own grid point, so the
  array is the one function of the arguments.
-/
import proofs.«159024_g2000605899403188_pallasbulk_86_30_alg».proof.Proof.RefRunBlock
import proofs.«159024_g2000605899403188_pallasbulk_86_30_alg».proof.Proof.RefRunCover

noncomputable section

namespace Cert.ReferenceIdeal.RefValue

open Cert.ReferenceIdeal Cert.ReferenceIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Cert.DenseConv Cert.ReferenceIdeal.RefHost

set_option maxRecDepth 16384

/-- What point t writes back is block t of the one whole-array function G of the arguments. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 7).cut (grid0.coords t) ((dats m 0 c).after 7 t) = _
  rw [after0_7]
  funext yb
  obtain ⟨z, hw, g, rfl⟩ : ∃ (z : Fin 1) (hw : Fin 784) (g : Fin 32), yb = ix3 z hw g := ⟨yb 0, yb 1, yb 2, eq_ix3 yb⟩
  obtain rfl : z = 0 := Subsingleton.elim _ _
  obtain ⟨-, -, -, e0, e1, e2, -⟩ := idx_facts t
  have ht : t.val < 48 := Nat.lt_of_lt_of_eq t.isLt N_0
  have hhwlt : hw.val < 784 := hw.isLt
  obtain ⟨n, hn⟩ : ∃ n : Fin 48, n.val = t.val := ⟨⟨t.val, ht⟩, rfl⟩
  have hhw : hw.val = (⟨hw.val / 28, by omega⟩ : Fin 28).val * 28 + (⟨hw.val % 28, Nat.mod_lt _ (by norm_num)⟩ : Fin 28).val := by
    show hw.val = hw.val / 28 * 28 + hw.val % 28
    omega
  have hemb : ((cfg0.win 7).blk t).view.emb (ix3 (0 : Fin 1) hw g) = (ix3 n hw g : S48x784x32.Idx) := funext fun a => Fin.ext (by
    match a with
    | ⟨0, _⟩ => show win0_7.index t (0 : Fin 3) * 1 + 1 * 0 = n.val; omega
    | ⟨1, _⟩ => show win0_7.index t (1 : Fin 3) * 784 + 1 * hw.val = hw.val; omega
    | ⟨2, _⟩ => show win0_7.index t (2 : Fin 3) * 32 + 1 * g.val = g.val; omega)
  show (out0_7 (iblk m c 0 t) (iblk m c 1 t) (iblk m c 2 t) (iblk m c 3 t) (iblk m c 4 t) (iblk m c 5 t) (iblk m c 6 t) : Vec Ideal S1x784x32 .f32) (ix3 (0 : Fin 1) hw g)
    = G _ _ _ _ _ _ (((cfg0.win 7).blk t).view.emb (ix3 (0 : Fin 1) hw g))
  rw [hemb]
  refine (block_conv (iblk m c 0 t) (iblk m c 1 t) (iblk m c 2 t) (iblk m c 3 t) (iblk m c 4 t) (iblk m c 5 t) (iblk m c 6 t) (iblk6_eq m c t)
    (⟨hw.val / 28, by omega⟩ : Fin 28) (⟨hw.val % 28, Nat.mod_lt _ (by norm_num)⟩ : Fin 28) hw hhw g).trans ?_
  have e0' : (fun (i' j' : Fin 28) (k : Fin 256) => iblk m c 0 t (ix3 (0 : Fin 1) (⟨i'.val * 28 + j'.val, by have := i'.isLt; have := j'.isLt; omega⟩ : Fin 784) k))
      = fun i' j' k => (m ((c : Thread nD τ).loc main_arg0) : S48x256x28x28.Idx → EReal) (ix4 n k i' j') :=
    funext fun i' => funext fun j' => funext fun k => iblk0_apply m c t n hn _ k i' j' rfl
  rw [e0', iblk1_eq, iblk2_eq, iblk3_eq, iblk4_eq, iblk5_eq]
  rfl

/-- The launch's output array after the run is G of the arguments. -/
theorem final (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t _ => flushed_eq m c t) Cert.ReferenceIdeal.RefCover.cover

end Cert.ReferenceIdeal.RefValue

end
-- ==== Proof.RefRunTail.lean ====
/-
  The reference program's last host operations, read as a whole: the stored convolution [48, 784, 32] recast to
  [48, 28, 28, 32], set after the input's 256 channels (channels last) along the channel axis, and the channel axis moved
  back to second place, is the layer's result.
-/
import proofs.«159024_g2000605899403188_pallasbulk_86_30_alg».proof.Proof.Gen.ReferenceIdeal.Frame
import proofs.«159024_g2000605899403188_pallasbulk_86_30_alg».proof.Proof.Spec
import proofs.«159024_g2000605899403188_pallasbulk_86_30_alg».proof.Proof.SpecAt
import Idealize.ShloMosaic.Lib.Pipeline.Value
import Idealize.ShloMosaic.Lib.ValueIdx

noncomputable section

namespace Cert.ReferenceIdeal.RefTail

open Cert.ReferenceIdeal Cert.ReferenceIdeal.Gen Idealize.ShloMosaic Idealize.ShloMosaic.ValueIdx

/-- The three last host operations applied to the input with its channels last (`xl`) and to an array `A` that holds, per
    image and position `hw = i·28 + j`, the 32 convolution channels: the layer's result. -/
theorem tail_at (x : S48x256x28x28.Idx → EReal) (s1 b1 : S1x256.Idx → EReal) (w1 : S256x128.Idx → EReal)
    (b2 : S1x128.Idx → EReal) (w2 : S1152x32.Idx → EReal)
    (xl : S48x28x28x256.Idx → EReal)
    (hxl : ∀ (n : Fin 48) (i j : Fin 28) (k : Fin 256), xl (ix4 n i j k) = x (ix4 n k i j))
    (A : S48x784x32.Idx → EReal)
    (hA : ∀ (n : Fin 48) (hw : Fin 784) (g : Fin 32) (i j : Fin 28), hw.val = i.val * 28 + j.val →
      A (ix3 n hw g) = Cert.DenseConv.convOf (Cert.DenseConv.actOf (fun i j k => x (ix4 n k i j)) s1 b1 w1 b2)
        (fun k => w2 (ix2 k g)) i j) :
    transpose S48x288x28x28 [0, 3, 1, 2]
        (concatenate S48x28x28x288 3 [⟨S48x28x28x256, xl⟩,
          ⟨S48x28x28x32, shapeCast S48x28x28x32 A shapeCasts_S48x784x32_S48x28x28x32⟩]
          concatenates_S48x28x28x256_S48x28x28x32_S48x28x28x288_d3)
        transposes_S48x28x28x288_S48x288x28x28_0_3_1_2
      = Cert.DenseConv.out x s1 b1 w1 b2 w2 := by
  funext y
  obtain ⟨n, ch, i, j, rfl⟩ : ∃ (n : Fin 48) (ch : Fin 288) (i j : Fin 28), y = ix4 n ch i j :=
    ⟨y 0, y 1, y 2, y 3, eq_ix4 y⟩
  -- the channel axis moved back to second place: entry (n, ch, i, j) is entry (n, i, j, ch) of the channels-last array
  refine (transpose_apply [0, 3, 1, 2] _ transposes_S48x28x28x288_S48x288x28x28_0_3_1_2 (ix4 n ch i j) (ix4 n i j ch)
    (fun b => by
      match b with
      | ⟨0, _⟩ => rfl
      | ⟨1, _⟩ => rfl
      | ⟨2, _⟩ => rfl
      | ⟨3, _⟩ => rfl)).trans ?_
  by_cases h : ch.val < 256
  · -- a channel of the input
    rw [Cert.DenseConv.out_lo x s1 b1 w1 b2 w2 n ch i j h]
    refine (concatenate_pair_apply_left _ xl _ concatenates_S48x28x28x256_S48x28x28x32_S48x28x28x288_d3 (ix4 n i j ch) rfl
      (ix4 n i j (⟨ch.val, h⟩ : Fin 256)) (fun b => by
        match b with
        | ⟨0, _⟩ => rfl
        | ⟨1, _⟩ => rfl
        | ⟨2, _⟩ => rfl
        | ⟨3, _⟩ => rfl)).trans ?_
    exact hxl n i j ⟨ch.val, h⟩
  · -- a channel of the convolution
    have h' : 256 ≤ ch.val := Nat.le_of_not_lt h
    have hch := ch.isLt
    have hi := i.isLt
    have hj := j.isLt
    rw [Cert.DenseConv.out_hi x s1 b1 w1 b2 w2 n ch i j h']
    refine (concatenate_pair_apply_right _ xl _ concatenates_S48x28x28x256_S48x28x28x32_S48x28x28x288_d3 (ix4 n i j ch) rfl rfl
      (ix4 n i j (⟨ch.val - 256, by omega⟩ : Fin 32)) (fun b hb => by
        match b with
        | ⟨0, _⟩ => rfl
        | ⟨1, _⟩ => rfl
        | ⟨2, _⟩ => rfl
        | ⟨3, _⟩ => exact absurd rfl hb) (by show ch.val - 256 + 256 = ch.val; omega)).trans ?_
    refine (shapeCast_apply A shapeCasts_S48x784x32_S48x28x28x32 (ix4 n i j (⟨ch.val - 256, by omega⟩ : Fin 32))
      (ix3 n (⟨i.val * 28 + j.val, by omega⟩ : Fin 784) (⟨ch.val - 256, by omega⟩ : Fin 32)) (by
        rw [Shape.rowMajor_val_three, Shape.rowMajor_val_four]
        show (n.val * 784 + (i.val * 28 + j.val)) * 32 + (ch.val - 256) = ((n.val * 28 + i.val) * 28 + j.val) * 32 + (ch.val - 256)
        omega)).trans ?_
    exact hA n _ _ i j rfl

end Cert.ReferenceIdeal.RefTail

end
-- ==== Proof.RefRun.lean ====
/-
  The reference program's run, read as a value: its result array is the layer's specification of its six arguments.
-/
import proofs.«159024_g2000605899403188_pallasbulk_86_30_alg».proof.Proof.RefRunFinal
import proofs.«159024_g2000605899403188_pallasbulk_86_30_alg».proof.Proof.RefRunTail

noncomputable section

namespace Cert.ReferenceIdeal.RefValue

open Cert.ReferenceIdeal Cert.ReferenceIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Cert.DenseConv Cert.ReferenceIdeal.RefHost

set_option maxRecDepth 16384

/-- The launch's output array at image n, position hw = i·28 + j, channel g: the convolution at row i, column j. -/
theorem G_at (x : S48x256x28x28.Idx → EReal) (s1 b1 : S1x256.Idx → EReal) (w1 : S256x128.Idx → EReal) (b2 : S1x128.Idx → EReal)
    (w2 : S1152x32.Idx → EReal) (n : Fin 48) (hw : Fin 784) (g : Fin 32) (i j : Fin 28) (h : hw.val = i.val * 28 + j.val) :
    G x s1 b1 w1 b2 w2 (ix3 n hw g)
      = convOf (actOf (fun i j k => x (ix4 n k i j)) s1 b1 w1 b2) (fun k => w2 (ix2 k g)) i j := by
  have hi : i.val < 28 := i.isLt
  have hj : j.val < 28 := j.isLt
  unfold G
  exact congrArg₂ (convOf _ _) (Fin.ext (by show hw.val / 28 = i.val; omega)) (Fin.ext (by show hw.val % 28 = j.val; omega))

/-- The program's result — the launch's output recast to rows and columns, set after the input's channels, the channel
    axis moved back to second place — is the layer's result. -/
theorem tail_eq (c : Dev nD) :
    (Pipeline.afterTail₀ cfgs (dats m) 0 (V0 m) [hostOps1] c main_v20 : S48x288x28x28.Idx → EReal)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : (Pipeline.afterTail₀ cfgs (dats m) 0 (V0 m) [hostOps1] c main_v20 : S48x288x28x28.Idx → EReal)
      = transpose S48x288x28x28 [0, 3, 1, 2]
          (concatenate S48x28x28x288 3 [⟨S48x28x28x256, xLast (m ((c : Thread nD τ).loc main_arg0))⟩,
            ⟨S48x28x28x32, shapeCast S48x28x28x32 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) shapeCasts_S48x784x32_S48x28x28x32⟩]
            concatenates_S48x28x28x256_S48x28x28x32_S48x28x28x288_d3)
          transposes_S48x28x28x288_S48x288x28x28_0_3_1_2 := by
    unfold Pipeline.afterTail₀
    show StableHlo.after hostOps1 _ (Proc.devRef .tc main_v20) = _
    after_results
    have hwa : Pipeline.withArrays (cfgs 0).spec c (V0 m c) (fun w => (dats m 0 c).arrAt w (cfgs 0).N) (Proc.devRef .tc main_v17)
        = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
      (Pipeline.withArrays_arr spec0 launch0.win.arr_inj c _ _ 7).trans (final m c)
    have hw0 : Pipeline.withArrays (cfgs 0).spec c (V0 m c) (fun w => (dats m 0 c).arrAt w (cfgs 0).N) (Proc.devRef .tc main_v0)
        = xLast (m ((c : Thread nD τ).loc main_arg0)) :=
      (Pipeline.withArrays_of_ne spec0 c (V0 m c) _ main_v0 (by decide)).trans (V_v0 m c)
    rw [hwa, hw0]
    rfl
  rw [e]
  exact Cert.ReferenceIdeal.RefTail.tail_at _ _ _ _ _ _ (xLast (m ((c : Thread nD τ).loc main_arg0)))
    (fun n i j k => xLast_apply _ n i j k) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun n hw g i j h => G_at _ _ _ _ _ _ n hw g i j h)

/-- The idealized reference's run: every weakly fair execution ends with the result buffer holding the layer's result of
    the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v20)
          = Cert.DenseConv.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v20 (Pipeline.mem_restRefs_of main_v20 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.RefValue

end
-- ==== Proof.lean ====
/-
  The certificate of a fused DenseNet layer against its per-image reference, on the extended reals.

  Both programs compute, for an input x of shape [48, 256, 28, 28]: h = max (x·s1 + b1) 0 channel by channel, the 1×1
  convolution T = max (h·w1 + b2) 0 with 128 channels, the 3×3 convolution of T with zero padding against w2, and the
  result's 288 channels are x's 256 followed by the convolution's 32 (Proof/Spec.lean: `Cert.DenseConv.out`).
  The kernel works on blocks of eight images with positions outermost, builds the three column neighbours side by side,
  multiplies once by the regrouped weights and adds the three row-shifted partial products; the reference works image by
  image, masks the rolled columns, lays the nine neighbours side by side and multiplies once. Each side's arithmetic is
  read at an entry of its block (Proof/KerPay.lean, Proof/RefPay.lean) as the same sum of 1152 products — a sum over
  1152 = 3·384 terms regrouped, which needs only that addition is commutative and associative, and 0·t = 0 for the padding, both of which
  hold on all extended reals: the inputs' finiteness is never used. Each program's run is then read as a value off its
  frame (Proof/KerRun.lean, Proof/RefRun.lean): the arrays the region finds, the block a grid point writes back, the cover
  of the output array by the points' blocks, and the host operations after the region.
  The three frames are the generated ones; the idealization rewrote nothing, so its conjunct is trivial.
-/
import proofs.«159024_g2000605899403188_pallasbulk_86_30_alg».proof.Defs
import proofs.«159024_g2000605899403188_pallasbulk_86_30_alg».proof.Proof.Gen.Kernel
import proofs.«159024_g2000605899403188_pallasbulk_86_30_alg».proof.Proof.Gen.Kernel.Frame
import proofs.«159024_g2000605899403188_pallasbulk_86_30_alg».proof.Proof.Gen.KernelIdeal
import proofs.«159024_g2000605899403188_pallasbulk_86_30_alg».proof.Proof.Gen.KernelIdeal.Frame
import proofs.«159024_g2000605899403188_pallasbulk_86_30_alg».proof.Proof.Gen.ReferenceIdeal
import proofs.«159024_g2000605899403188_pallasbulk_86_30_alg».proof.Proof.Gen.ReferenceIdeal.Frame
import proofs.«159024_g2000605899403188_pallasbulk_86_30_alg».proof.Proof.Gen.Pre_finite_inputs
import proofs.«159024_g2000605899403188_pallasbulk_86_30_alg».proof.Proof.KerRun
import proofs.«159024_g2000605899403188_pallasbulk_86_30_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories that agree on the arguments both idealized programs end with the layer's result of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.DenseConv.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KerRun.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
